-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x256x512 : Shape := ⟨3, ![256, 256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x256x512 : S_.BroadcastsInDim S256x256x512 (![] : Fin 0 → Fin S256x256x512.rank)
  reducesTo_S256x256x512_S_d0_1_2 : S256x256x512.ReducesTo [0, 1, 2] S_

variable [Facts]

def fn {F : FTy → Type} [FloatOps F] (main_arg0 : FVec F S256x512 .f32) (main_arg1 : FVec F S256x256x512 .f32) (main_arg2 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x256x512 .f32 := Host.absf main_arg1
  let main_cst_0 : FVec F S_ .f32 := constant S_ .f32 0x7F800000#32
  let main_v5 : FVec F S256x256x512 .f32 := broadcastInDim S256x256x512 ![] bcast_S_S256x256x512 main_cst_0
  let main_v6 : IVec S256x256x512 1 := cmpf .olt main_v4 main_v5
  let main_c_1 : IVec S_ 1 := constantI S_ 1 1#1
  let main_v7 : IVec S_ 1 := (fun x v => Host.reduce IntOp.andi x v reducesTo_S256x256x512_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S256x512 : Shape := ⟨2, ![256, 512]⟩
abbrev S256x256x512 : Shape := ⟨3, ![256, 256, 512]⟩
abbrev S8x512 : Shape := ⟨2, ![8, 512]⟩
abbrev S8x256x512 : Shape := ⟨3, ![8, 256, 512]⟩
abbrev S256x768x512 : Shape := ⟨3, ![256, 768, 512]⟩
abbrev S8x128x512 : Shape := ⟨3, ![8, 128, 512]⟩
abbrev S8x1x512 : Shape := ⟨3, ![8, 1, 512]⟩
abbrev S128x512 : Shape := ⟨2, ![128, 512]⟩
abbrev S8x128 : Shape := ⟨2, ![8, 128]⟩
abbrev S8x128x1 : Shape := ⟨3, ![8, 128, 1]⟩
abbrev S1x128x512 : Shape := ⟨3, ![1, 128, 512]⟩

abbrev nBuf : Space → Nat
  | .hbm => 8
  | .vmem => 22
  | .smem => 0
  | _ => 0

abbrev bufTy : (tb : Table) → Fin (tcTables nBuf tb) → BufTy
  | .hbm, ⟨0, _⟩ => ⟨S256x512, .f32⟩
  | .hbm, ⟨1, _⟩ => ⟨S256x256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x768x512, .f32⟩
  | .local _ .vmem, ⟨0, _⟩ => ⟨S8x512, .f32⟩
  | .local _ .vmem, ⟨1, _⟩ => ⟨S8x512, .f32⟩
  | .local _ .vmem, ⟨2, _⟩ => ⟨S8x256x512, .f32⟩
  | .local _ .vmem, ⟨3, _⟩ => ⟨S8x256x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x128x512, .f32⟩
  | .local _ .vmem, ⟨15, _⟩ => ⟨S8x128x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x128x512, .f32⟩
  | .local _ .vmem, ⟨21, _⟩ => ⟨S8x128x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 6], ![false, false]⟩

def k1_cond2 (i : grid1.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def k1_mult1 (i : grid1.Coords) : BitVec 32 :=
  let arg1 : BitVec 32 := BitVec.ofNat 32 (i 1).val
  let c2_i32_2 : BitVec 32 := 2#32
  let v6 : BitVec 32 := Scalar.subi arg1 c2_i32_2
  let c128_i32 : BitVec 32 := 128#32
  let v7 : BitVec 32 := Scalar.muli v6 c128_i32
  v7
def k1_off1 (i : grid1.Coords) : Fin 2 → Nat :=
  let c0 : Index := 0#32
  let arg1 : BitVec 32 := BitVec.ofNat 32 (i 1).val
  let c2_i32_2 : BitVec 32 := 2#32
  let v6 : BitVec 32 := Scalar.subi arg1 c2_i32_2
  let c128_i32 : BitVec 32 := 128#32
  let v7 : BitVec 32 := Scalar.muli v6 c128_i32
  let v8 : BitVec 32 := v7
  let v16 : Index := Scalar.indexCast v8
  ![0, v16.toNat]
def k1_cond1 (i : grid1.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def cc1_transform_0 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x512_S8x512_0_0 : ∀ a, (![0, 0] : Fin 2 → Nat) a + S8x512.size a ≤ S8x512.size a
  h_S8x512 : 0 < S8x512.numel
  inb_S8x256x512_S8x256x512_0_0_0 : ∀ a, (![0, 0, 0] : Fin 3 → Nat) a + S8x256x512.size a ≤ S8x256x512.size a
  h_S8x256x512 : 0 < S8x256x512.numel
  reduces_S8x256x512_S8x512 : S8x256x512.Reduces [1] S8x512
  shapeCasts_S8x512_S8x512 : S8x512.ShapeCasts S8x512
  inb_S8x128x512_S8x128x512_0_0_0 : ∀ a, (![0, 0, 0] : Fin 3 → Nat) a + S8x128x512.size a ≤ S8x128x512.size a
  h_S8x128x512 : 0 < S8x128x512.numel
  shapeCasts_S8x512_S8x1x512 : S8x512.ShapeCasts S8x1x512
  broadcasts_S8x1x512_S8x128x512 : S8x1x512.Broadcasts S8x128x512
  iota_S128x512_d0_w32 : S128x512.Iotas .tc 32 [0]
  iota_S128x512_d1_w32 : S128x512.Iotas .tc 32 [1]
  natLt_1_32 : 1 < 32
  h_S8x128 : 0 < S8x128.numel
  shapeCasts_S8x128_S8x128 : S8x128.ShapeCasts S8x128
  shapeCasts_S8x128_S8x128x1 : S8x128.ShapeCasts S8x128x1
  shapeCasts_S128x512_S1x128x512 : S128x512.ShapeCasts S1x128x512
  broadcasts_S8x128x1_S8x128x512 : S8x128x1.Broadcasts S8x128x512
  broadcasts_S1x128x512_S8x128x512 : S1x128x512.Broadcasts S8x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .f32 = 32 ∨ (Rect.block (s := S256x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S256x256x512.size a
  hwx0_1 : ∀ i : grid0.Coords, EltTy.bits .f32 = 32 ∨ (Rect.block (s := S256x256x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S256x512.size a
  hwx0_2 : ∀ i : grid0.Coords, EltTy.bits .f32 = 32 ∨ (Rect.block (s := S256x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S256x512.size a
  hwx0_3 : ∀ i : grid0.Coords, EltTy.bits .f32 = 32 ∨ (Rect.block (s := S256x512) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S256x512.size a
  hwx0_4 : ∀ i : grid0.Coords, EltTy.bits .f32 = 32 ∨ (Rect.block (s := S256x512) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S256x512.size a
  hwx0_5 : ∀ i : grid0.Coords, EltTy.bits .f32 = 32 ∨ (Rect.block (s := S256x512) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S256x512.size a
  hwx0_6 : ∀ i : grid0.Coords, EltTy.bits .f32 = 32 ∨ (Rect.block (s := S256x512) S8x512.size (cc0_transform_6 i) (hinb0_6 i)).WholeWords (EltTy.packing .f32)
  hrank1 : 0 < grid1.rank
  k1_mult1_dvd : ∀ i : grid1.Coords, ∀ (k1_h2 : k1_cond2 i = 1#1), 128 ∣ (k1_mult1 i).toNat
  k1_off1_inb : ∀ i : grid1.Coords, ∀ (k1_h2 : k1_cond2 i = 1#1), ∀ a, (k1_off1 i) a + S8x128.size a ≤ S8x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x512.size a ≤ S256x256x512.size a
  hwx1_0 : ∀ i : grid1.Coords, EltTy.bits .f32 = 32 ∨ (Rect.block (s := S256x256x512) S8x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S256x512.size a
  hwx1_1 : ∀ i : grid1.Coords, EltTy.bits .f32 = 32 ∨ (Rect.block (s := S256x512) S8x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S256x512.size a
  hwx1_2 : ∀ i : grid1.Coords, EltTy.bits .f32 = 32 ∨ (Rect.block (s := S256x512) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x512.size a ≤ S256x768x512.size a
  hwx1_3 : ∀ i : grid1.Coords, EltTy.bits .f32 = 32 ∨ (Rect.block (s := S256x768x512) S8x128x512.size (cc1_transform_3 i) (hinb1_3 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S8x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S8x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_2) S8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_3) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8x128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S256x512 : Shape := ⟨2, ![256, 512]⟩
abbrev S256x256x512 : Shape := ⟨3, ![256, 256, 512]⟩
abbrev S_ : Shape := ⟨0, ![]⟩
abbrev S256x1x512 : Shape := ⟨3, ![256, 1, 512]⟩
abbrev S256x512x1 : Shape := ⟨3, ![256, 512, 1]⟩
abbrev S512x512 : Shape := ⟨2, ![512, 512]⟩
abbrev S1x512x512 : Shape := ⟨3, ![1, 512, 512]⟩
abbrev S256x512x512 : Shape := ⟨3, ![256, 512, 512]⟩
abbrev S256x768x512 : Shape := ⟨3, ![256, 768, 512]⟩

abbrev nBuf : Space → Nat
  | .hbm => 86
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x256x512, .f32⟩
  | .hbm, ⟨2, _⟩ => ⟨S256x512, .f32⟩
  | .hbm, ⟨3, _⟩ => ⟨S256x256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .i1⟩
  | .hbm, ⟨25, _⟩ => ⟨S_, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .i1⟩
  | .hbm, ⟨32, _⟩ => ⟨S_, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .i1⟩
  | .hbm, ⟨38, _⟩ => ⟨S_, .f32⟩
  | .hbm, ⟨39, _⟩ => ⟨S256x512, .f32⟩
  | .hbm, ⟨40, _⟩ => ⟨S256x512, .f32⟩
  | .hbm, ⟨41, _⟩ => ⟨S_, .f32⟩
  | .hbm, ⟨42, _⟩ => ⟨S256x512, .f32⟩
  | .hbm, ⟨43, _⟩ => ⟨S256x512, .i1⟩
  | .hbm, ⟨44, _⟩ => ⟨S_, .f32⟩
  | .hbm, ⟨45, _⟩ => ⟨S256x512, .f32⟩
  | .hbm, ⟨46, _⟩ => ⟨S256x512, .f32⟩
  | .hbm, ⟨47, _⟩ => ⟨S_, .f32⟩
  | .hbm, ⟨48, _⟩ => ⟨S256x512, .f32⟩
  | .hbm, ⟨49, _⟩ => ⟨S256x512, .i1⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256x512, .f32⟩
  | .hbm, ⟨57, _⟩ => ⟨S256x512, .f32⟩
  | .hbm, ⟨58, _⟩ => ⟨S_, .f32⟩
  | .hbm, ⟨59, _⟩ => ⟨S256x512, .f32⟩
  | .hbm, ⟨60, _⟩ => ⟨S256x512, .f32⟩
  | .hbm, ⟨61, _⟩ => ⟨S256x512, .f32⟩
  | .hbm, ⟨62, _⟩ => ⟨S256x512, .f32⟩
  | .hbm, ⟨63, _⟩ => ⟨S_, .f32⟩
  | .hbm, ⟨64, _⟩ => ⟨S256x512, .f32⟩
  | .hbm, ⟨65, _⟩ => ⟨S256x512, .f32⟩
  | .hbm, ⟨66, _⟩ => ⟨S256x512, .f32⟩
  | .hbm, ⟨67, _⟩ => ⟨S256x512, .f32⟩
  | .hbm, ⟨68, _⟩ => ⟨S256x512, .f32⟩
  | .hbm, ⟨69, _⟩ => ⟨S256x1x512, .f32⟩
  | .hbm, ⟨70, _⟩ => ⟨S256x256x512, .f32⟩
  | .hbm, ⟨71, _⟩ => ⟨S256x256x512, .f32⟩
  | .hbm, ⟨72, _⟩ => ⟨S256x512x1, .f32⟩
  | .hbm, ⟨73, _⟩ => ⟨S512x512, .i32⟩
  | .hbm, ⟨74, _⟩ => ⟨S512x512, .i32⟩
  | .hbm, ⟨75, _⟩ => ⟨S_, .i32⟩
  | .hbm, ⟨76, _⟩ => ⟨S512x512, .i32⟩
  | .hbm, ⟨77, _⟩ => ⟨S512x512, .i32⟩
  | .hbm, ⟨78, _⟩ => ⟨S512x512, .i1⟩
  | .hbm, ⟨79, _⟩ => ⟨S512x512, .f32⟩
  | .hbm, ⟨80, _⟩ => ⟨S1x512x512, .f32⟩
  | .hbm, ⟨81, _⟩ => ⟨S256x512x512, .f32⟩
  | .hbm, ⟨82, _⟩ => ⟨S256x512x512, .f32⟩
  | .hbm, ⟨83, _⟩ => ⟨S256x512x512, .f32⟩
  | .hbm, ⟨84, _⟩ => ⟨S256x768x512, .f32⟩
  | .hbm, ⟨85, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call2_v0 : Ref sig .tc := ⟨.hbm, 26, rfl⟩
abbrev main_call2_v1 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call3_v0 : Ref sig .tc := ⟨.hbm, 33, rfl⟩
abbrev main_call3_v1 : Ref sig .tc := ⟨.hbm, 34, rfl⟩
abbrev main_v18 : Ref sig .tc := ⟨.hbm, 35, rfl⟩
abbrev main_cst_5 : Ref sig .tc := ⟨.hbm, 36, rfl⟩
abbrev main_call4_v0 : Ref sig .tc := ⟨.hbm, 37, rfl⟩
abbrev main_call4_v1 : Ref sig .tc := ⟨.hbm, 38, rfl⟩
abbrev main_call4_call0_v0 : Ref sig .tc := ⟨.hbm, 39, rfl⟩
abbrev main_call4_v2 : Ref sig .tc := ⟨.hbm, 40, rfl⟩
abbrev main_call4_cst : Ref sig .tc := ⟨.hbm, 41, rfl⟩
abbrev main_call4_v3 : Ref sig .tc := ⟨.hbm, 42, rfl⟩
abbrev main_call4_v4 : Ref sig .tc := ⟨.hbm, 43, rfl⟩
abbrev main_call4_cst_0 : Ref sig .tc := ⟨.hbm, 44, rfl⟩
abbrev main_call4_call1_v0 : Ref sig .tc := ⟨.hbm, 45, rfl⟩
abbrev main_call4_v5 : Ref sig .tc := ⟨.hbm, 46, rfl⟩
abbrev main_call4_cst_1 : Ref sig .tc := ⟨.hbm, 47, rfl⟩
abbrev main_call4_v6 : Ref sig .tc := ⟨.hbm, 48, rfl⟩
abbrev main_call4_v7 : Ref sig .tc := ⟨.hbm, 49, rfl⟩
abbrev main_call4_cst_2 : Ref sig .tc := ⟨.hbm, 50, rfl⟩
abbrev main_call4_call2_v0 : Ref sig .tc := ⟨.hbm, 51, rfl⟩
abbrev main_v19 : Ref sig .tc := ⟨.hbm, 52, rfl⟩
abbrev main_cst_6 : Ref sig .tc := ⟨.hbm, 53, rfl⟩
abbrev main_cst_7 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_8 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩

abbrev nD : Nat := 1
abbrev τ : Topo := Topo.v7x

variable {F : FTy → Type} [FloatOps F]

class Facts₀ : Prop where
  reducesTo_S256x256x512_S256x512_d1 : S256x256x512.ReducesTo [1] S256x512
  h_S_ : 0 < S_.numel
  bcast_S_S256x512 : S_.BroadcastsInDim S256x512 (![] : Fin 0 → Fin S256x512.rank)
  bcast_S256x512_S256x1x512_0_2 : S256x512.BroadcastsInDim S256x1x512 (![0, 2] : Fin 2 → Fin S256x1x512.rank)
  bcast_S256x1x512_S256x256x512_0_1_2 : S256x1x512.BroadcastsInDim S256x256x512 (![0, 1, 2] : Fin 3 → Fin S256x256x512.rank)
  bcast_S256x512_S256x512x1_0_1 : S256x512.BroadcastsInDim S256x512x1 (![0, 1] : Fin 2 → Fin S256x512x1.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S256x512x1_S256x512x512_0_1_2 : S256x512x1.BroadcastsInDim S256x512x512 (![0, 1, 2] : Fin 3 → Fin S256x512x512.rank)
  bcast_S1x512x512_S256x512x512_0_1_2 : S1x512x512.BroadcastsInDim S256x512x512 (![0, 1, 2] : Fin 3 → Fin S256x512x512.rank)
  concatenates_S256x256x512_S256x512x512_S256x768x512_d1 : Shape.Concatenates [S256x256x512, S256x512x512] S256x768x512 1

variable [Facts₀]

class Facts : Prop extends Facts₀ where

variable [Facts]
-- ==== Proof.WReg0.lean ====
/-
  The first of the two pipelined regions: per block of eight rows it forms the interval [c − r, c + r] around the centre
  c from the radius r = Σₙ|pdₙ| + |err|, the slope λ of the ReLU relaxation clipped to [0, 1], the offset
  β = (relu(c − r) − λ·(c − r))/2, and writes four blocks: λ·c + β, λ·err, λ and |β|.
  Stated at ANY contents V of the buffers at the region's entry: what each window's staging buffer holds after the body
  at a point (the body's four stores over its three loaded blocks), the body's triple, the proof data and the body
  obligation of the pipeline rule.
-/
import proofs.«140390_j59004260712750_2_alg».proof.Proof.Gen.Kernel.Launch
import proofs.«140390_j59004260712750_2_alg».proof.Proof.Gen.Kernel.Skeleton
import proofs.«140390_j59004260712750_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 8×512 block and the whole 8×256×512 block: the rectangles of every load and store of the body. -/
abbrev rA : Rect S8x512 := Rect.unit (s := S8x512) ![0, 0] S8x512.size inb_S8x512_S8x512_0_0
abbrev rB : Rect S8x256x512 := Rect.unit (s := S8x256x512) ![0, 0, 0] S8x256x512.size inb_S8x256x512_S8x256x512_0_0_0

/-- The words of 0 and 1 the clip to [0, 1] is taken against. -/
abbrev w0 : F .f32 := Scalar.ofBits .f32 0x00000000#32
abbrev w1 : F .f32 := Scalar.ofBits .f32 0x3F800000#32

/-- The slope block before the clip, the lower end c − r and its rectified value, from the three loaded blocks. -/
abbrev pre9 (x0 : Vec F S8x512 .f32) (x1 : Vec F S8x256x512 .f32) (x2 : Vec F S8x512 .f32) : FVec F S8x512 .f32 :=
  k0_pay9 (View.ld x0 rA) (View.ld x1 rB) (View.ld x2 rA)
abbrev pre7 (x0 : Vec F S8x512 .f32) (x1 : Vec F S8x256x512 .f32) (x2 : Vec F S8x512 .f32) : FVec F S8x512 .f32 :=
  k0_pay7 (View.ld x0 rA) (View.ld x1 rB) (View.ld x2 rA)
abbrev pre8 (x0 : Vec F S8x512 .f32) (x1 : Vec F S8x256x512 .f32) (x2 : Vec F S8x512 .f32) : FVec F S8x512 .f32 :=
  k0_pay8 (View.ld x0 rA) (View.ld x1 rB) (View.ld x2 rA)

/-- What the body leaves in the four output windows' buffers: λ·c + β, λ·err, λ, |β|, each one whole-block store. -/
def out0_3 (x0 : Vec F S8x512 .f32) (x1 : Vec F S8x256x512 .f32) (x2 : Vec F S8x512 .f32) : Vec F S8x512 .f32 :=
  View.canon [⟨rA, k0_pay4 (View.ld x0 rA) (pre7 x0 x1 x2) (pre8 x0 x1 x2) (pre9 x0 x1 x2) w0 w1⟩]
def out0_4 (x0 : Vec F S8x512 .f32) (x1 : Vec F S8x256x512 .f32) (x2 : Vec F S8x512 .f32) : Vec F S8x512 .f32 :=
  View.canon [⟨rA, k0_pay5 (View.ld x2 rA) (pre9 x0 x1 x2) w0 w1⟩]
def out0_5 (x0 : Vec F S8x512 .f32) (x1 : Vec F S8x256x512 .f32) (x2 : Vec F S8x512 .f32) : Vec F S8x512 .f32 :=
  View.canon [⟨rA, k0_pay1 (pre9 x0 x1 x2) w0 w1⟩]
def out0_6 (x0 : Vec F S8x512 .f32) (x1 : Vec F S8x256x512 .f32) (x2 : Vec F S8x512 .f32) : Vec F S8x512 .f32 :=
  View.canon [⟨rA, k0_pay3 (pre7 x0 x1 x2) (pre8 x0 x1 x2) (pre9 x0 x1 x2) w0 w1⟩]

/-- One whole-block store covers the block. -/
theorem coverA (p0 : Vec F S8x512 .f32) (y : S8x512.Idx) :
    ∃ pc ∈ ([⟨rA, p0⟩] : List (View.Piece (Elt F) S8x512 .f32)), y ∈ pc.1.set :=
  View.cover_of_tiled [⟨rA, p0⟩] S8x512.size (by rfl) y

set_option maxHeartbeats 1000000 in
/-- The body on whole staging buffers, the inputs' at contents x0 x1 x2 and the outputs' at anything, runs to the
    continuation with the inputs' as they were and the outputs' at the four stored blocks. -/
theorem sound_kernel0 (c : Dev nD) (E : Set ℕ) (i : grid0.Coords)
    (arg1 : Memref sig .tc .vmem S8x512 .f32) (harg1 : arg1.IsWhole) (arg2 : Memref sig .tc .vmem S8x256x512 .f32) (harg2 : arg2.IsWhole)
    (arg3 : Memref sig .tc .vmem S8x512 .f32) (harg3 : arg3.IsWhole) (arg4 : Memref sig .tc .vmem S8x512 .f32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S8x512 .f32) (harg7 : arg7.IsWhole)
    (x0 : Vec F S8x512 .f32) (x1 : Vec F S8x256x512 .f32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverA _)
  isplitl [H4]
  · iexists _; isplitr
    swap; · iexact H4
    ipureintro
    try dsimp only
    exact View.read_writes_eq_canon _ _ _ (coverA _)
  isplitl [H5]
  · iexists _; isplitr
    swap; · iexact H5
    ipureintro
    try dsimp only
    exact View.read_writes_eq_canon _ _ _ (coverA _)
  iexists _; isplitr
  swap; · iexact H6
  ipureintro
  try dsimp only
  exact View.read_writes_eq_canon _ _ _ (coverA _)

/-- The proof data of the first pipeline on core c: the arrays as the region finds them; after the body at point t each
    input's buffer at its block and each output's at its stored block; the scoped rest and the generator register as
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WReg1.lean ====
/-
  The second pipelined region: over a grid of 32 × 6 points it writes block (i, j) of the [256, 768, 512] result. For
  j < 2 the block is rows 128·j … 128·j + 127 of the generators, each scaled by the slope λ of its batch row and column;
  for j ≥ 2 it is a band of the diagonal embedding: entry (b, r, q) is |β|(b, 128·(j − 2) + r) where
  128·(j − 2) + r = q and 0 elsewhere. The two cases exclude each other and exhaust the grid.
  Stated at ANY contents V of the buffers at the region's entry: the block the body leaves in the output window's
  buffer in each case, the body's triple per case, the proof data and the body obligation of the pipeline rule.
-/
import proofs.«140390_j59004260712750_2_alg».proof.Proof.Gen.Kernel.Launch
import proofs.«140390_j59004260712750_2_alg».proof.Proof.Gen.Kernel.Skeleton
import proofs.«140390_j59004260712750_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a block that is not
    fetched again has the index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- At every grid point exactly one of the two cases holds. -/
theorem cond_split : ∀ t : Fin cfg1.N,
    (k1_cond1 (grid1.coords t) = 1#1 ∧ ¬ k1_cond2 (grid1.coords t) = 1#1) ∨ (¬ k1_cond1 (grid1.coords t) = 1#1 ∧ k1_cond2 (grid1.coords t) = 1#1) :=
  (by decide +kernel : ∀ t : Fin grid1.N,
    (k1_cond1 (grid1.coords t) = 1#1 ∧ ¬ k1_cond2 (grid1.coords t) = 1#1) ∨ (¬ k1_cond1 (grid1.coords t) = 1#1 ∧ k1_cond2 (grid1.coords t) = 1#1))
/-- So the output window is stored into at every point. -/
theorem liveAt1_3 : ∀ t : Fin cfg1.N, cfg1.idle 3 (grid1.coords t) = false :=
  (by decide +kernel : ∀ t : Fin grid1.N, idle1 3 (grid1.coords t) = false)

/-- The whole blocks, and the 8 × 128 columns of the |β| block the diagonal band reads. -/
abbrev sA : Rect S8x512 := Rect.unit (s := S8x512) ![0, 0] S8x512.size inb_S8x512_S8x512_0_0
abbrev sC : Rect S8x128x512 := Rect.unit (s := S8x128x512) ![0, 0, 0] S8x128x512.size inb_S8x128x512_S8x128x512_0_0_0
abbrev sD (i : grid1.Coords) (h2 : k1_cond2 i = 1#1) : Rect S8x512 := Rect.unit (s := S8x512) (k1_off1 i) S8x128.size (k1_off1_inb i h2)

/-- What the body leaves in the output window's buffer: the scaled generators in the first case, the diagonal band in
    the second — each one whole-block store. -/
def out1_3A (x0 : Vec F S8x128x512 .f32) (x1 : Vec F S8x512 .f32) : Vec F S8x128x512 .f32 :=
  View.canon [⟨sC, k1_pay1 (View.ld x1 sA) (View.ld x0 sC)⟩]
def out1_3B (i : grid1.Coords) (h2 : k1_cond2 i = 1#1) (x2 : Vec F S8x512 .f32) : Vec F S8x128x512 .f32 :=
  View.canon [⟨sC, k1_pay2 i (View.ld x2 (sD i h2))⟩]

theorem coverC (p0 : Vec F S8x128x512 .f32) (y : S8x128x512.Idx) :
    ∃ pc ∈ ([⟨sC, p0⟩] : List (View.Piece (Elt F) S8x128x512 .f32)), y ∈ pc.1.set :=
  View.cover_of_tiled [⟨sC, p0⟩] S8x128x512.size (by rfl) y

set_option maxHeartbeats 1000000 in
/-- The body in the first case (j < 2). -/
theorem sound_kernel1A (c : Dev nD) (E : Set ℕ) (i : grid1.Coords)
    (arg2 : Memref sig .tc .vmem S8x128x512 .f32) (harg2 : arg2.IsWhole) (arg3 : Memref sig .tc .vmem S8x512 .f32) (harg3 : arg3.IsWhole)
    (arg4 : Memref sig .tc .vmem S8x512 .f32) (harg4 : arg4.IsWhole) (arg5 : Memref sig .tc .vmem S8x128x512 .f32) (harg5 : arg5.IsWhole)
    (hc1 : k1_cond1 i = 1#1) (hc2 : ¬ k1_cond2 i = 1#1)
    (x0 : Vec F S8x128x512 .f32) (x1 : Vec F S8x512 .f32) (x2 : Vec F S8x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3A x0 x1)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverC _)

set_option maxHeartbeats 1000000 in
/-- The body in the second case (j ≥ 2). -/
theorem sound_kernel1B (c : Dev nD) (E : Set ℕ) (i : grid1.Coords)
    (arg2 : Memref sig .tc .vmem S8x128x512 .f32) (harg2 : arg2.IsWhole) (arg3 : Memref sig .tc .vmem S8x512 .f32) (harg3 : arg3.IsWhole)
    (arg4 : Memref sig .tc .vmem S8x512 .f32) (harg4 : arg4.IsWhole) (arg5 : Memref sig .tc .vmem S8x128x512 .f32) (harg5 : arg5.IsWhole)
    (hc1 : ¬ k1_cond1 i = 1#1) (hc2 : k1_cond2 i = 1#1)
    (x0 : Vec F S8x128x512 .f32) (x1 : Vec F S8x512 .f32) (x2 : Vec F S8x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3B i hc2 x2)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverC _)

/-- The proof data of the second pipeline on core c: the arrays as the region finds them; after the body at point t each
    input's buffer at its block and the output's at the case's stored block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => if h2 : k1_cond2 (grid1.coords t) = 1#1 then out1_3B (grid1.coords t) h2 (iblk1 V c 2 t)
                else out1_3A (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3A (c : Dev nD) (t : Fin cfg1.N) (h2 : ¬ k1_cond2 (grid1.coords t) = 1#1) :
    (dat1 V c).after 3 t = out1_3A (iblk1 V c 0 t) (iblk1 V c 1 t) := by dsimp only [dat1]; rw [dif_neg h2]
theorem after1_3B (c : Dev nD) (t : Fin cfg1.N) (h2 : k1_cond2 (grid1.coords t) = 1#1) :
    (dat1 V c).after 3 t = out1_3B (grid1.coords t) h2 (iblk1 V c 2 t) := by dsimp only [dat1]; rw [dif_pos h2]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from by
      unfold Dat.leavesExact; rw [liveAt1_3 t]]
  rcases cond_split t with ⟨h1, h2⟩ | ⟨h1, h2⟩
  · rw [after1_3A V c t h2]
    iintro ⟨HΦ, Ho, ⟨%d0, H0⟩, ⟨%d1, H1⟩, ⟨%d2, H2⟩, ⟨%d3, H3⟩⟩
    iapply (sound_kernel1A c Set.univ _ _ _ _ _ _ _ _ _ h1 h2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [after1_3B V c t h2]
    iintro ⟨HΦ, Ho, ⟨%d0, H0⟩, ⟨%d1, H1⟩, ⟨%d2, H2⟩, ⟨%d3, H3⟩⟩
    iapply (sound_kernel1B c Set.univ _ _ _ _ _ _ _ _ _ h1 h2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WRun.lean ====
/-
  The run of the whole program: its two pipelined regions one after the other, nothing between them. The contents of
  every unscoped buffer at the three boundaries are a fold from the launch memory: after the first region its four result
  arrays hold what its write-backs leave and everything else is as launched; after the second the large result array holds
  what its write-backs leave and everything else is as the first region left it. Every weakly fair execution terminates
  and the final memory holds each unscoped buffer at the last boundary's contents; in particular the three argument
  arrays end as launched.
-/
import proofs.«140390_j59004260712750_2_alg».proof.Proof.WReg0
import proofs.«140390_j59004260712750_2_alg».proof.Proof.WReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! The arguments end as launched: neither region writes one (each reads it through an input window or not at all). -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := W1_main_arg1 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! The results at the end: the first region's two returned arrays are untouched by the second. -/

theorem W2_main_v0_0 (c : Dev nD) : W2 m ρ c (Proc.devRef .tc main_v0_0) = (dat0 (V0 m ρ) c).arrAt 3 cfg0.N :=
  (W2_of_ne m ρ c main_v0_0 (by decide)).trans (W1_arr m ρ c 3)
theorem W2_main_v0_1 (c : Dev nD) : W2 m ρ c (Proc.devRef .tc main_v0_1) = (dat0 (V0 m ρ) c).arrAt 4 cfg0.N :=
  (W2_of_ne m ρ c main_v0_1 (by decide)).trans (W1_arr m ρ c 4)
theorem W2_main_v1 (c : Dev nD) : W2 m ρ c (Proc.devRef .tc main_v1) = (dat1 (V1 m ρ) c).arrAt 3 cfg1.N :=
  W2_arr m ρ c 3
theorem V1_main_v0_2 (c : Dev nD) : V1 m ρ c main_v0_2 = (dat0 (V0 m ρ) c).arrAt 5 cfg0.N := W1_arr m ρ c 5
theorem V1_main_v0_3 (c : Dev nD) : V1 m ρ c main_v0_3 = (dat0 (V0 m ρ) c).arrAt 6 cfg0.N := W1_arr m ρ c 6
theorem V1_main_arg1 (c : Dev nD) : V1 m ρ c main_arg1 = m ((c : Thread nD τ).loc main_arg1) := W1_main_arg1 m ρ c

/-! The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- The first region over the thread state: entered from every unscoped buffer at the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W1, left at W2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

/-- The run with the three returned arrays named: each at what its region's write-backs leave. -/
theorem run_named : θ_run defs (onTc (τ := τ) (main (F := F))) ⟨m, fun _ => 0, ρ⟩ (fun r => ∀ c : Dev nD,
      r.2.mem ((c.tc : Thread nD τ).loc main_v0_0) = (dat0 (V0 m ρ) c).arrAt 3 cfg0.N
      ∧ r.2.mem ((c.tc : Thread nD τ).loc main_v1) = (dat1 (V1 m ρ) c).arrAt 3 cfg1.N
      ∧ r.2.mem ((c.tc : Thread nD τ).loc main_v0_1) = (dat0 (V0 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (W2_main_v0_0 m ρ c),
     (h c _ (mem_uc main_v1 (by decide))).trans (W2_main_v1 m ρ c),
     (h c _ (mem_uc main_v0_1 (by decide))).trans (W2_main_v0_1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

end Cert.Kernel.Hand

end
-- ==== Proof.KReg0.lean ====
/-
  The first of the two pipelined regions: per block of eight rows it forms the interval [c − r, c + r] around the centre
  c from the radius r = Σₙ|pdₙ| + |err|, the slope λ of the ReLU relaxation clipped to [0, 1], the offset
  β = (relu(c − r) − λ·(c − r))/2, and writes four blocks: λ·c + β, λ·err, λ and |β|.
  Stated at ANY contents V of the buffers at the region's entry: what each window's staging buffer holds after the body
  at a point (the body's four stores over its three loaded blocks), the body's triple, the proof data and the body
  obligation of the pipeline rule.
-/
import proofs.«140390_j59004260712750_2_alg».proof.Proof.Gen.KernelIdeal.Launch
import proofs.«140390_j59004260712750_2_alg».proof.Proof.Gen.KernelIdeal.Skeleton
import proofs.«140390_j59004260712750_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 8×512 block and the whole 8×256×512 block: the rectangles of every load and store of the body. -/
abbrev rA : Rect S8x512 := Rect.unit (s := S8x512) ![0, 0] S8x512.size inb_S8x512_S8x512_0_0
abbrev rB : Rect S8x256x512 := Rect.unit (s := S8x256x512) ![0, 0, 0] S8x256x512.size inb_S8x256x512_S8x256x512_0_0_0

/-- The words of 0 and 1 the clip to [0, 1] is taken against. -/
abbrev w0 : F .f32 := Scalar.ofBits .f32 0x00000000#32
abbrev w1 : F .f32 := Scalar.ofBits .f32 0x3F800000#32

/-- The slope block before the clip, the lower end c − r and its rectified value, from the three loaded blocks. -/
abbrev pre9 (x0 : Vec F S8x512 .f32) (x1 : Vec F S8x256x512 .f32) (x2 : Vec F S8x512 .f32) : FVec F S8x512 .f32 :=
  k0_pay9 (View.ld x0 rA) (View.ld x1 rB) (View.ld x2 rA)
abbrev pre7 (x0 : Vec F S8x512 .f32) (x1 : Vec F S8x256x512 .f32) (x2 : Vec F S8x512 .f32) : FVec F S8x512 .f32 :=
  k0_pay7 (View.ld x0 rA) (View.ld x1 rB) (View.ld x2 rA)
abbrev pre8 (x0 : Vec F S8x512 .f32) (x1 : Vec F S8x256x512 .f32) (x2 : Vec F S8x512 .f32) : FVec F S8x512 .f32 :=
  k0_pay8 (View.ld x0 rA) (View.ld x1 rB) (View.ld x2 rA)

/-- What the body leaves in the four output windows' buffers: λ·c + β, λ·err, λ, |β|, each one whole-block store. -/
def out0_3 (x0 : Vec F S8x512 .f32) (x1 : Vec F S8x256x512 .f32) (x2 : Vec F S8x512 .f32) : Vec F S8x512 .f32 :=
  View.canon [⟨rA, k0_pay4 (View.ld x0 rA) (pre7 x0 x1 x2) (pre8 x0 x1 x2) (pre9 x0 x1 x2) w0 w1⟩]
def out0_4 (x0 : Vec F S8x512 .f32) (x1 : Vec F S8x256x512 .f32) (x2 : Vec F S8x512 .f32) : Vec F S8x512 .f32 :=
  View.canon [⟨rA, k0_pay5 (View.ld x2 rA) (pre9 x0 x1 x2) w0 w1⟩]
def out0_5 (x0 : Vec F S8x512 .f32) (x1 : Vec F S8x256x512 .f32) (x2 : Vec F S8x512 .f32) : Vec F S8x512 .f32 :=
  View.canon [⟨rA, k0_pay1 (pre9 x0 x1 x2) w0 w1⟩]
def out0_6 (x0 : Vec F S8x512 .f32) (x1 : Vec F S8x256x512 .f32) (x2 : Vec F S8x512 .f32) : Vec F S8x512 .f32 :=
  View.canon [⟨rA, k0_pay3 (pre7 x0 x1 x2) (pre8 x0 x1 x2) (pre9 x0 x1 x2) w0 w1⟩]

/-- One whole-block store covers the block. -/
theorem coverA (p0 : Vec F S8x512 .f32) (y : S8x512.Idx) :
    ∃ pc ∈ ([⟨rA, p0⟩] : List (View.Piece (Elt F) S8x512 .f32)), y ∈ pc.1.set :=
  View.cover_of_tiled [⟨rA, p0⟩] S8x512.size (by rfl) y

set_option maxHeartbeats 1000000 in
/-- The body on whole staging buffers, the inputs' at contents x0 x1 x2 and the outputs' at anything, runs to the
    continuation with the inputs' as they were and the outputs' at the four stored blocks. -/
theorem sound_kernel0 (c : Dev nD) (E : Set ℕ) (i : grid0.Coords)
    (arg1 : Memref sig .tc .vmem S8x512 .f32) (harg1 : arg1.IsWhole) (arg2 : Memref sig .tc .vmem S8x256x512 .f32) (harg2 : arg2.IsWhole)
    (arg3 : Memref sig .tc .vmem S8x512 .f32) (harg3 : arg3.IsWhole) (arg4 : Memref sig .tc .vmem S8x512 .f32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S8x512 .f32) (harg7 : arg7.IsWhole)
    (x0 : Vec F S8x512 .f32) (x1 : Vec F S8x256x512 .f32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverA _)
  isplitl [H4]
  · iexists _; isplitr
    swap; · iexact H4
    ipureintro
    try dsimp only
    exact View.read_writes_eq_canon _ _ _ (coverA _)
  isplitl [H5]
  · iexists _; isplitr
    swap; · iexact H5
    ipureintro
    try dsimp only
    exact View.read_writes_eq_canon _ _ _ (coverA _)
  iexists _; isplitr
  swap; · iexact H6
  ipureintro
  try dsimp only
  exact View.read_writes_eq_canon _ _ _ (coverA _)

/-- The proof data of the first pipeline on core c: the arrays as the region finds them; after the body at point t each
    input's buffer at its block and each output's at its stored block; the scoped rest and the generator register as
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KReg1.lean ====
/-
  The second pipelined region: over a grid of 32 × 6 points it writes block (i, j) of the [256, 768, 512] result. For
  j < 2 the block is rows 128·j … 128·j + 127 of the generators, each scaled by the slope λ of its batch row and column;
  for j ≥ 2 it is a band of the diagonal embedding: entry (b, r, q) is |β|(b, 128·(j − 2) + r) where
  128·(j − 2) + r = q and 0 elsewhere. The two cases exclude each other and exhaust the grid.
  Stated at ANY contents V of the buffers at the region's entry: the block the body leaves in the output window's
  buffer in each case, the body's triple per case, the proof data and the body obligation of the pipeline rule.
-/
import proofs.«140390_j59004260712750_2_alg».proof.Proof.Gen.KernelIdeal.Launch
import proofs.«140390_j59004260712750_2_alg».proof.Proof.Gen.KernelIdeal.Skeleton
import proofs.«140390_j59004260712750_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a block that is not
    fetched again has the index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- At every grid point exactly one of the two cases holds. -/
theorem cond_split : ∀ t : Fin cfg1.N,
    (k1_cond1 (grid1.coords t) = 1#1 ∧ ¬ k1_cond2 (grid1.coords t) = 1#1) ∨ (¬ k1_cond1 (grid1.coords t) = 1#1 ∧ k1_cond2 (grid1.coords t) = 1#1) :=
  (by decide +kernel : ∀ t : Fin grid1.N,
    (k1_cond1 (grid1.coords t) = 1#1 ∧ ¬ k1_cond2 (grid1.coords t) = 1#1) ∨ (¬ k1_cond1 (grid1.coords t) = 1#1 ∧ k1_cond2 (grid1.coords t) = 1#1))
/-- So the output window is stored into at every point. -/
theorem liveAt1_3 : ∀ t : Fin cfg1.N, cfg1.idle 3 (grid1.coords t) = false :=
  (by decide +kernel : ∀ t : Fin grid1.N, idle1 3 (grid1.coords t) = false)

/-- The whole blocks, and the 8 × 128 columns of the |β| block the diagonal band reads. -/
abbrev sA : Rect S8x512 := Rect.unit (s := S8x512) ![0, 0] S8x512.size inb_S8x512_S8x512_0_0
abbrev sC : Rect S8x128x512 := Rect.unit (s := S8x128x512) ![0, 0, 0] S8x128x512.size inb_S8x128x512_S8x128x512_0_0_0
abbrev sD (i : grid1.Coords) (h2 : k1_cond2 i = 1#1) : Rect S8x512 := Rect.unit (s := S8x512) (k1_off1 i) S8x128.size (k1_off1_inb i h2)

/-- What the body leaves in the output window's buffer: the scaled generators in the first case, the diagonal band in
    the second — each one whole-block store. -/
def out1_3A (x0 : Vec F S8x128x512 .f32) (x1 : Vec F S8x512 .f32) : Vec F S8x128x512 .f32 :=
  View.canon [⟨sC, k1_pay1 (View.ld x1 sA) (View.ld x0 sC)⟩]
def out1_3B (i : grid1.Coords) (h2 : k1_cond2 i = 1#1) (x2 : Vec F S8x512 .f32) : Vec F S8x128x512 .f32 :=
  View.canon [⟨sC, k1_pay2 i (View.ld x2 (sD i h2))⟩]

theorem coverC (p0 : Vec F S8x128x512 .f32) (y : S8x128x512.Idx) :
    ∃ pc ∈ ([⟨sC, p0⟩] : List (View.Piece (Elt F) S8x128x512 .f32)), y ∈ pc.1.set :=
  View.cover_of_tiled [⟨sC, p0⟩] S8x128x512.size (by rfl) y

set_option maxHeartbeats 1000000 in
/-- The body in the first case (j < 2). -/
theorem sound_kernel1A (c : Dev nD) (E : Set ℕ) (i : grid1.Coords)
    (arg2 : Memref sig .tc .vmem S8x128x512 .f32) (harg2 : arg2.IsWhole) (arg3 : Memref sig .tc .vmem S8x512 .f32) (harg3 : arg3.IsWhole)
    (arg4 : Memref sig .tc .vmem S8x512 .f32) (harg4 : arg4.IsWhole) (arg5 : Memref sig .tc .vmem S8x128x512 .f32) (harg5 : arg5.IsWhole)
    (hc1 : k1_cond1 i = 1#1) (hc2 : ¬ k1_cond2 i = 1#1)
    (x0 : Vec F S8x128x512 .f32) (x1 : Vec F S8x512 .f32) (x2 : Vec F S8x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3A x0 x1)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverC _)

set_option maxHeartbeats 1000000 in
/-- The body in the second case (j ≥ 2). -/
theorem sound_kernel1B (c : Dev nD) (E : Set ℕ) (i : grid1.Coords)
    (arg2 : Memref sig .tc .vmem S8x128x512 .f32) (harg2 : arg2.IsWhole) (arg3 : Memref sig .tc .vmem S8x512 .f32) (harg3 : arg3.IsWhole)
    (arg4 : Memref sig .tc .vmem S8x512 .f32) (harg4 : arg4.IsWhole) (arg5 : Memref sig .tc .vmem S8x128x512 .f32) (harg5 : arg5.IsWhole)
    (hc1 : ¬ k1_cond1 i = 1#1) (hc2 : k1_cond2 i = 1#1)
    (x0 : Vec F S8x128x512 .f32) (x1 : Vec F S8x512 .f32) (x2 : Vec F S8x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3B i hc2 x2)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverC _)

/-- The proof data of the second pipeline on core c: the arrays as the region finds them; after the body at point t each
    input's buffer at its block and the output's at the case's stored block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => if h2 : k1_cond2 (grid1.coords t) = 1#1 then out1_3B (grid1.coords t) h2 (iblk1 V c 2 t)
                else out1_3A (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3A (c : Dev nD) (t : Fin cfg1.N) (h2 : ¬ k1_cond2 (grid1.coords t) = 1#1) :
    (dat1 V c).after 3 t = out1_3A (iblk1 V c 0 t) (iblk1 V c 1 t) := by dsimp only [dat1]; rw [dif_neg h2]
theorem after1_3B (c : Dev nD) (t : Fin cfg1.N) (h2 : k1_cond2 (grid1.coords t) = 1#1) :
    (dat1 V c).after 3 t = out1_3B (grid1.coords t) h2 (iblk1 V c 2 t) := by dsimp only [dat1]; rw [dif_pos h2]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from by
      unfold Dat.leavesExact; rw [liveAt1_3 t]]
  rcases cond_split t with ⟨h1, h2⟩ | ⟨h1, h2⟩
  · rw [after1_3A V c t h2]
    iintro ⟨HΦ, Ho, ⟨%d0, H0⟩, ⟨%d1, H1⟩, ⟨%d2, H2⟩, ⟨%d3, H3⟩⟩
    iapply (sound_kernel1A c Set.univ _ _ _ _ _ _ _ _ _ h1 h2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [after1_3B V c t h2]
    iintro ⟨HΦ, Ho, ⟨%d0, H0⟩, ⟨%d1, H1⟩, ⟨%d2, H2⟩, ⟨%d3, H3⟩⟩
    iapply (sound_kernel1B c Set.univ _ _ _ _ _ _ _ _ _ h1 h2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The run of the whole program: its two pipelined regions one after the other, nothing between them. The contents of
  every unscoped buffer at the three boundaries are a fold from the launch memory: after the first region its four result
  arrays hold what its write-backs leave and everything else is as launched; after the second the large result array holds
  what its write-backs leave and everything else is as the first region left it. Every weakly fair execution terminates
  and the final memory holds each unscoped buffer at the last boundary's contents; in particular the three argument
  arrays end as launched.
-/
import proofs.«140390_j59004260712750_2_alg».proof.Proof.KReg0
import proofs.«140390_j59004260712750_2_alg».proof.Proof.KReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! The arguments end as launched: neither region writes one (each reads it through an input window or not at all). -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := W1_main_arg1 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! The results at the end: the first region's two returned arrays are untouched by the second. -/

theorem W2_main_v0_0 (c : Dev nD) : W2 m ρ c (Proc.devRef .tc main_v0_0) = (dat0 (V0 m ρ) c).arrAt 3 cfg0.N :=
  (W2_of_ne m ρ c main_v0_0 (by decide)).trans (W1_arr m ρ c 3)
theorem W2_main_v0_1 (c : Dev nD) : W2 m ρ c (Proc.devRef .tc main_v0_1) = (dat0 (V0 m ρ) c).arrAt 4 cfg0.N :=
  (W2_of_ne m ρ c main_v0_1 (by decide)).trans (W1_arr m ρ c 4)
theorem W2_main_v1 (c : Dev nD) : W2 m ρ c (Proc.devRef .tc main_v1) = (dat1 (V1 m ρ) c).arrAt 3 cfg1.N :=
  W2_arr m ρ c 3
theorem V1_main_v0_2 (c : Dev nD) : V1 m ρ c main_v0_2 = (dat0 (V0 m ρ) c).arrAt 5 cfg0.N := W1_arr m ρ c 5
theorem V1_main_v0_3 (c : Dev nD) : V1 m ρ c main_v0_3 = (dat0 (V0 m ρ) c).arrAt 6 cfg0.N := W1_arr m ρ c 6
theorem V1_main_arg1 (c : Dev nD) : V1 m ρ c main_arg1 = m ((c : Thread nD τ).loc main_arg1) := W1_main_arg1 m ρ c

/-! The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- The first region over the thread state: entered from every unscoped buffer at the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W1, left at W2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

/-- The run with the three returned arrays named: each at what its region's write-backs leave. -/
theorem run_named : θ_run defs (onTc (τ := τ) (main (F := F))) ⟨m, fun _ => 0, ρ⟩ (fun r => ∀ c : Dev nD,
      r.2.mem ((c.tc : Thread nD τ).loc main_v0_0) = (dat0 (V0 m ρ) c).arrAt 3 cfg0.N
      ∧ r.2.mem ((c.tc : Thread nD τ).loc main_v1) = (dat1 (V1 m ρ) c).arrAt 3 cfg1.N
      ∧ r.2.mem ((c.tc : Thread nD τ).loc main_v0_1) = (dat0 (V0 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (W2_main_v0_0 m ρ c),
     (h c _ (mem_uc main_v1 (by decide))).trans (W2_main_v1 m ρ c),
     (h c _ (mem_uc main_v0_1 (by decide))).trans (W2_main_v0_1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

end Cert.KernelIdeal.Hand

end
-- ==== Proof.Spec.lean ====
/-
  The ReLU relaxation of a zonotope, coordinate by coordinate. A coordinate has a centre c and generators whose absolute
  values, with the absolute error term, sum to its radius r; its interval is [c − r, c + r]. The relaxation's slope is
  λ = (relu(c + r) − relu(c − r)) / ((c + r) − (c − r) + ε), replaced by 1 where c − r ≥ 0 and by 0 where c + r < 0, with the
  guards of a not-a-number and of the two infinities, clipped to [0, 1]; its offset is β = (relu(c − r) − λ·(c − r))/2. The new
  centre is λ·c + β, every generator and the error are scaled by λ, and |β| becomes a new generator of its own, placed on
  a diagonal. Stated here once as functions of one coordinate's numbers (for any float values) and as functions of the
  three whole argument arrays at an index (over the extended reals), for both programs to be compared with.
-/
import Idealize.ShloMosaic.PureOps.Ideal
import Idealize.ShloMosaic.Lib.ValueIdx

noncomputable section

namespace Cert.ReluZono

open Idealize.ShloMosaic Idealize.ShloMosaic.ValueIdx

section OneCoordinate
variable {F : FTy → Type} [FloatOps F]

/-- The number a 32-bit pattern denotes. -/
abbrev wd (b : BitVec 32) : F .f32 := FloatOps.ofBits .f32 b

/-- The interval's lower end c − r and its rectified value. -/
def sLower (c r : F .f32) : F .f32 := FloatOps.subf c r
def sRl (c r : F .f32) : F .f32 := FloatOps.maximumf (sLower c r) (wd 0x00000000#32)

/-- The slope before the clip: the quotient, the two sign cases, the three guards. -/
def sRaw (c r : F .f32) : F .f32 :=
  let up : F .f32 := FloatOps.addf c r
  let ru : F .f32 := FloatOps.maximumf up (wd 0x00000000#32)
  let num : F .f32 := FloatOps.subf ru (sRl c r)
  let den : F .f32 := FloatOps.addf (FloatOps.subf up (sLower c r)) (wd 0x322BCC77#32)
  let q : F .f32 := FloatOps.divf num den
  let l1 : F .f32 := Scalar.select (FloatOps.cmpf .oge (sLower c r) (wd 0x00000000#32)) (wd 0x3F800000#32) q
  let l2 : F .f32 := Scalar.select (FloatOps.cmpf .olt up (wd 0x00000000#32)) (wd 0x00000000#32) l1
  let n0 : F .f32 := Scalar.select (FloatOps.cmpf .one l2 l2) (wd 0x00000000#32) l2
  let n1 : F .f32 := Scalar.select (FloatOps.cmpf .oeq n0 (wd 0x7F800000#32)) (wd 0x7F7FFFFF#32) n0
  Scalar.select (FloatOps.cmpf .oeq n1 (wd 0xFF800000#32)) (wd 0xFF7FFFFF#32) n1

/-- The slope λ, the offset β, and what is stored: λ·c + β, λ·e, |β|. -/
def sLam (c r : F .f32) : F .f32 := FloatOps.minimumf (wd 0x3F800000#32) (FloatOps.maximumf (wd 0x00000000#32) (sRaw c r))
def sBeta (c r : F .f32) : F .f32 :=
  FloatOps.mulf (FloatOps.subf (sRl c r) (FloatOps.mulf (sLam c r) (sLower c r))) (wd 0x3F000000#32)
def sDelta (c r : F .f32) : F .f32 := FloatOps.absf (sBeta c r)
def sCentral (c r : F .f32) : F .f32 := FloatOps.addf (FloatOps.mulf (sLam c r) c) (sBeta c r)
def sErr (e c r : F .f32) : F .f32 := FloatOps.mulf (sLam c r) e

end OneCoordinate

/-! The whole arrays, over the extended reals. -/

abbrev A2 : Type := (⟨2, ![256, 512]⟩ : Shape).Idx → EReal
abbrev A3 : Type := (⟨3, ![256, 256, 512]⟩ : Shape).Idx → EReal
abbrev A3' : Type := (⟨3, ![256, 768, 512]⟩ : Shape).Idx → EReal

/-- The radius of coordinate (p, q): the generators' absolute values summed, plus the absolute error. -/
def radAt (a1 : A3) (a2 : A2) (p : Fin 256) (q : Fin 512) : EReal :=
  (∑ n : Fin 256, FloatOps.absf (F := Ideal) (φ := .f32) (a1 (ix3 p n q))) + FloatOps.absf (F := Ideal) (φ := .f32) (a2 (ix2 p q))

def lamAt (a0 : A2) (a1 : A3) (a2 : A2) (p : Fin 256) (q : Fin 512) : EReal := sLam (F := Ideal) (a0 (ix2 p q)) (radAt a1 a2 p q)
def deltaAt (a0 : A2) (a1 : A3) (a2 : A2) (p : Fin 256) (q : Fin 512) : EReal := sDelta (F := Ideal) (a0 (ix2 p q)) (radAt a1 a2 p q)
def centralAt (a0 : A2) (a1 : A3) (a2 : A2) (p : Fin 256) (q : Fin 512) : EReal := sCentral (F := Ideal) (a0 (ix2 p q)) (radAt a1 a2 p q)
def errAt (a0 : A2) (a1 : A3) (a2 : A2) (p : Fin 256) (q : Fin 512) : EReal := sErr (F := Ideal) (a2 (ix2 p q)) (a0 (ix2 p q)) (radAt a1 a2 p q)

/-- The four [256, 512] arrays. -/
def GLam (a0 : A2) (a1 : A3) (a2 : A2) : A2 := fun i => lamAt a0 a1 a2 (i 0) (i 1)
def GDelta (a0 : A2) (a1 : A3) (a2 : A2) : A2 := fun i => deltaAt a0 a1 a2 (i 0) (i 1)
def GCentral (a0 : A2) (a1 : A3) (a2 : A2) : A2 := fun i => centralAt a0 a1 a2 (i 0) (i 1)
def GErr (a0 : A2) (a1 : A3) (a2 : A2) : A2 := fun i => errAt a0 a1 a2 (i 0) (i 1)

/-- An entry of the identity matrix. -/
def eyeAt (r q : Nat) : EReal := if r = q then 1 else 0

/-- The new generators from the old ones, the slopes and the |β|: rows below 256 are the old generators scaled, row
    256 + r holds |β|(·, r) on the diagonal q = r and 0 elsewhere. -/
def pdAt (a1 : A3) (lam dl : A2) (p : Fin 256) (r : Fin 768) (q : Fin 512) : EReal :=
  if h : r.val < 256 then FloatOps.mulf (F := Ideal) (φ := .f32) (a1 (ix3 p ⟨r.val, h⟩ q)) (lam (ix2 p q))
  else FloatOps.mulf (F := Ideal) (φ := .f32) (dl (ix2 p (⟨r.val - 256, by have := r.isLt; omega⟩ : Fin 512))) (eyeAt (r.val - 256) q.val)
def GPd (a1 : A3) (lam dl : A2) : A3' := fun i => pdAt a1 lam dl (i 0) (i 1) (i 2)

end Cert.ReluZono

end
-- ==== Proof.KVal0.lean ====
/-
  What the first region leaves in its four result arrays, over the extended reals: entry (p, q) of each is the one-coordinate
  function (new centre, scaled error, slope, |offset|) of the centre at (p, q) and of the radius there — the sum over the 256
  generators of their absolute values at (p, ·, q) plus the absolute error. Point t of the grid handles rows 8t … 8t + 7; its
  block of each result is that function of the blocks it loaded, and the 32 blocks tile the 256 rows.
-/
import proofs.«140390_j59004260712750_2_alg».proof.Proof.KRun
import proofs.«140390_j59004260712750_2_alg».proof.Proof.Spec
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReluZono Idealize.ShloMosaic.ValueIdx

/-! The body's payloads are the one-coordinate functions, entry by entry (for any float values). -/

section Pointwise
variable {F : FTy → Type} [FloatOps F]
variable (v0 : Vec F S8x512 .f32) (v1 : Vec F S8x256x512 .f32) (v2 : Vec F S8x512 .f32) (i : S8x512.Idx)

theorem lam_at : k0_pay1 (k0_pay9 v0 v1 v2) w0 w1 i = sLam (v0 i) (k0_pay6 v1 v2 i) := rfl
theorem delta_at : k0_pay3 (k0_pay7 v0 v1 v2) (k0_pay8 v0 v1 v2) (k0_pay9 v0 v1 v2) w0 w1 i = sDelta (v0 i) (k0_pay6 v1 v2 i) := rfl
theorem central_at : k0_pay4 v0 (k0_pay7 v0 v1 v2) (k0_pay8 v0 v1 v2) (k0_pay9 v0 v1 v2) w0 w1 i = sCentral (v0 i) (k0_pay6 v1 v2 i) := rfl
theorem err_at : k0_pay5 v2 (k0_pay9 v0 v1 v2) w0 w1 i = sErr (v2 i) (v0 i) (k0_pay6 v1 v2 i) := rfl

end Pointwise

/-- The radius block at (p, q), over the extended reals: the sum over the generators plus the absolute error. -/
theorem radius_at (v1 : Vec Ideal S8x256x512 .f32) (v2 : Vec Ideal S8x512 .f32) (p : Fin 8) (q : Fin 512) :
    k0_pay6 v1 v2 (ix2 p q)
      = (∑ n : Fin 256, FloatOps.absf (F := Ideal) (φ := .f32) (v1 (ix3 p n q))) + FloatOps.absf (F := Ideal) (φ := .f32) (v2 (ix2 p q)) := by
  unfold k0_pay6
  show (multiReduction (F := Ideal) (φ := .f32) .add [1] S8x512 (absf v1) 0x00000000#32 reduces_S8x256x512_S8x512 (.inl rfl) rfl (ix2 p q) : EReal)
      + FloatOps.absf (F := Ideal) (φ := .f32) (v2 (ix2 p q)) = _
  refine congrArg (· + FloatOps.absf (F := Ideal) (φ := .f32) (v2 (ix2 p q))) ?_
  refine (Ideal.multiReduction_add_single (absf v1) 0x00000000#32 reduces_S8x256x512_S8x512 (.inl rfl) rfl (ix2 p q)).trans ?_
  refine Finset.sum_congr rfl fun n _ => ?_
  show FloatOps.absf (F := Ideal) (φ := .f32) (v1 _) = FloatOps.absf (F := Ideal) (φ := .f32) (v1 (ix3 p n q))
  refine congrArg (fun z => FloatOps.absf (F := Ideal) (φ := .f32) (v1 z)) ?_
  funext a
  match a with
  | ⟨0, _⟩ => rfl
  | ⟨1, _⟩ => rfl
  | ⟨2, _⟩ => rfl

theorem hzA : (![0, 0] : Fin 2 → Nat) = fun _ => 0 := funext fun a => by fin_cases a <;> rfl
theorem hzB : (![0, 0, 0] : Fin 3 → Nat) = fun _ => 0 := funext fun a => by fin_cases a <;> rfl

/-- The index maps over the grid: point t is block row t of every window. -/
theorem idx_facts0 : ∀ t : Fin cfg0.N,
    (win0_0.index t (0 : Fin 2) = t.val ∧ win0_0.index t (1 : Fin 2) = 0 ∧ win0_2.index t (0 : Fin 2) = t.val ∧ win0_2.index t (1 : Fin 2) = 0
      ∧ win0_3.index t (0 : Fin 2) = t.val ∧ win0_3.index t (1 : Fin 2) = 0 ∧ win0_4.index t (0 : Fin 2) = t.val ∧ win0_4.index t (1 : Fin 2) = 0)
    ∧ (win0_5.index t (0 : Fin 2) = t.val ∧ win0_5.index t (1 : Fin 2) = 0 ∧ win0_6.index t (0 : Fin 2) = t.val ∧ win0_6.index t (1 : Fin 2) = 0)
    ∧ (win0_1.index t (0 : Fin 3) = t.val ∧ win0_1.index t (1 : Fin 3) = 0 ∧ win0_1.index t (2 : Fin 3) = 0)
    ∧ t.val < 32 ∧ True :=
  (by decide +kernel : ∀ t : Fin grid0.N, _)

/-- Row p of point t's block is row 8t + p of the array. -/
def rowOf (t : Fin cfg0.N) (p : Fin 8) : Fin 256 := ⟨8 * t.val + p.val, by have := (idx_facts0 t).2.2.2.1; omega⟩

theorem emb0_0 (t : Fin cfg0.N) (p : Fin 8) (q : Fin 512) :
    ((cfg0.win 0).blk t).view.emb (ix2 p q) = ix2 (rowOf t p) q := by
  obtain ⟨⟨e0, e1, -, -, -, -, -, -⟩, -, -, e4, -⟩ := idx_facts0 t
  funext a; apply Fin.ext
  match a with
  | ⟨0, _⟩ => show win0_0.index t (0 : Fin 2) * 8 + 1 * p.val = 8 * t.val + p.val; omega
  | ⟨1, _⟩ => show win0_0.index t (1 : Fin 2) * 512 + 1 * q.val = q.val; omega
theorem emb0_2 (t : Fin cfg0.N) (p : Fin 8) (q : Fin 512) :
    ((cfg0.win 2).blk t).view.emb (ix2 p q) = ix2 (rowOf t p) q := by
  obtain ⟨⟨-, -, e0, e1, -, -, -, -⟩, -, -, e4, -⟩ := idx_facts0 t
  funext a; apply Fin.ext
  match a with
  | ⟨0, _⟩ => show win0_2.index t (0 : Fin 2) * 8 + 1 * p.val = 8 * t.val + p.val; omega
  | ⟨1, _⟩ => show win0_2.index t (1 : Fin 2) * 512 + 1 * q.val = q.val; omega
theorem emb0_3 (t : Fin cfg0.N) (p : Fin 8) (q : Fin 512) :
    ((cfg0.win 3).blk t).view.emb (ix2 p q) = ix2 (rowOf t p) q := by
  obtain ⟨⟨-, -, -, -, e0, e1, -, -⟩, -, -, e4, -⟩ := idx_facts0 t
  funext a; apply Fin.ext
  match a with
  | ⟨0, _⟩ => show win0_3.index t (0 : Fin 2) * 8 + 1 * p.val = 8 * t.val + p.val; omega
  | ⟨1, _⟩ => show win0_3.index t (1 : Fin 2) * 512 + 1 * q.val = q.val; omega
theorem emb0_4 (t : Fin cfg0.N) (p : Fin 8) (q : Fin 512) :
    ((cfg0.win 4).blk t).view.emb (ix2 p q) = ix2 (rowOf t p) q := by
  obtain ⟨⟨-, -, -, -, -, -, e0, e1⟩, -, -, e4, -⟩ := idx_facts0 t
  funext a; apply Fin.ext
  match a with
  | ⟨0, _⟩ => show win0_4.index t (0 : Fin 2) * 8 + 1 * p.val = 8 * t.val + p.val; omega
  | ⟨1, _⟩ => show win0_4.index t (1 : Fin 2) * 512 + 1 * q.val = q.val; omega
theorem emb0_5 (t : Fin cfg0.N) (p : Fin 8) (q : Fin 512) :
    ((cfg0.win 5).blk t).view.emb (ix2 p q) = ix2 (rowOf t p) q := by
  obtain ⟨-, ⟨e0, e1, -, -⟩, -, e4, -⟩ := idx_facts0 t
  funext a; apply Fin.ext
  match a with
  | ⟨0, _⟩ => show win0_5.index t (0 : Fin 2) * 8 + 1 * p.val = 8 * t.val + p.val; omega
  | ⟨1, _⟩ => show win0_5.index t (1 : Fin 2) * 512 + 1 * q.val = q.val; omega
theorem emb0_6 (t : Fin cfg0.N) (p : Fin 8) (q : Fin 512) :
    ((cfg0.win 6).blk t).view.emb (ix2 p q) = ix2 (rowOf t p) q := by
  obtain ⟨-, ⟨-, -, e0, e1⟩, -, e4, -⟩ := idx_facts0 t
  funext a; apply Fin.ext
  match a with
  | ⟨0, _⟩ => show win0_6.index t (0 : Fin 2) * 8 + 1 * p.val = 8 * t.val + p.val; omega
  | ⟨1, _⟩ => show win0_6.index t (1 : Fin 2) * 512 + 1 * q.val = q.val; omega

theorem emb0_1 (t : Fin cfg0.N) (p : Fin 8) (n : Fin 256) (q : Fin 512) :
    ((cfg0.win 1).blk t).view.emb (ix3 p n q) = ix3 (rowOf t p) n q := by
  obtain ⟨-, -, ⟨e0, e1, e2⟩, e4, -⟩ := idx_facts0 t
  funext a; apply Fin.ext
  match a with
  | ⟨0, _⟩ => show win0_1.index t (0 : Fin 3) * 8 + 1 * p.val = 8 * t.val + p.val; omega
  | ⟨1, _⟩ => show win0_1.index t (1 : Fin 3) * 256 + 1 * n.val = n.val; omega
  | ⟨2, _⟩ => show win0_1.index t (2 : Fin 3) * 512 + 1 * q.val = q.val; omega

variable (V : (c : Dev nD) → (b : Ref sig .tc) → Buf (Elt Ideal) ((c : Thread nD τ).loc b))

/-- The three loaded blocks at an entry are the argument arrays at row 8t + p. -/
theorem blk0_at (c : Dev nD) (t : Fin cfg0.N) (p : Fin 8) (q : Fin 512) :
    iblk0 V c 0 t (ix2 p q) = V c main_arg0 (ix2 (rowOf t p) q) := by
  show V c main_arg0 (((cfg0.win 0).blk t).view.emb (ix2 p q)) = _
  rw [emb0_0]
theorem blk2_at (c : Dev nD) (t : Fin cfg0.N) (p : Fin 8) (q : Fin 512) :
    iblk0 V c 2 t (ix2 p q) = V c main_arg2 (ix2 (rowOf t p) q) := by
  show V c main_arg2 (((cfg0.win 2).blk t).view.emb (ix2 p q)) = _
  rw [emb0_2]
theorem blk1_at (c : Dev nD) (t : Fin cfg0.N) (p : Fin 8) (n : Fin 256) (q : Fin 512) :
    iblk0 V c 1 t (ix3 p n q) = V c main_arg1 (ix3 (rowOf t p) n q) := by
  show V c main_arg1 (((cfg0.win 1).blk t).view.emb (ix3 p n q)) = _
  rw [emb0_1]

/-- The radius of the loaded blocks at (p, q) is the arrays' radius at (8t + p, q). -/
theorem radius_blk (c : Dev nD) (t : Fin cfg0.N) (p : Fin 8) (q : Fin 512) :
    k0_pay6 (F := Ideal) (iblk0 V c 1 t) (iblk0 V c 2 t) (ix2 p q) = radAt (V c main_arg1) (V c main_arg2) (rowOf t p) q := by
  rw [radius_at]
  unfold radAt
  rw [blk2_at]
  refine congrArg (· + _) (Finset.sum_congr rfl fun n _ => ?_)
  rw [blk1_at]

theorem GLam_ix (a0 : A2) (a1 : A3) (a2 : A2) (P : Fin 256) (q : Fin 512) : GLam a0 a1 a2 (ix2 P q) = lamAt a0 a1 a2 P q := rfl
theorem GDelta_ix (a0 : A2) (a1 : A3) (a2 : A2) (P : Fin 256) (q : Fin 512) : GDelta a0 a1 a2 (ix2 P q) = deltaAt a0 a1 a2 P q := rfl
theorem GCentral_ix (a0 : A2) (a1 : A3) (a2 : A2) (P : Fin 256) (q : Fin 512) : GCentral a0 a1 a2 (ix2 P q) = centralAt a0 a1 a2 P q := rfl
theorem GErr_ix (a0 : A2) (a1 : A3) (a2 : A2) (P : Fin 256) (q : Fin 512) : GErr a0 a1 a2 (ix2 P q) = errAt a0 a1 a2 P q := rfl

/-- What point t writes back into the array of window 3 is block t of the whole-array function. -/
theorem flushed0_3_eq (c : Dev nD) (t : Fin cfg0.N) :
    (dat0 V c).flushed 3 t = ((cfg0.win 3).blk t).view.read (Elt Ideal) (GCentral (V c main_arg0) (V c main_arg1) (V c main_arg2)) := by
  show (cfg0.win 3).cut (grid0.coords t) ((dat0 V c).after 3 t) = _
  rw [after0_3]
  unfold out0_3 pre7 pre8 pre9
  rw [View.canon_unit_zero hzA]
  simp only [View.ld_unit_zero (S := S8x512) hzA, View.ld_unit_zero (S := S8x256x512) hzB]
  funext j
  obtain ⟨p, q, rfl⟩ : ∃ (p : Fin 8) (q : Fin 512), j = ix2 p q := ⟨j 0, j 1, eq_ix2 j⟩
  show k0_pay4 (iblk0 V c 0 t) (k0_pay7 (iblk0 V c 0 t) (iblk0 V c 1 t) (iblk0 V c 2 t)) (k0_pay8 (iblk0 V c 0 t) (iblk0 V c 1 t) (iblk0 V c 2 t)) (k0_pay9 (iblk0 V c 0 t) (iblk0 V c 1 t) (iblk0 V c 2 t)) w0 w1 (ix2 p q)
    = GCentral (V c main_arg0) (V c main_arg1) (V c main_arg2) (((cfg0.win 3).blk t).view.emb (ix2 p q))
  rw [central_at, radius_blk, blk0_at, emb0_3, GCentral_ix]
  rfl

theorem mem_blk0_3 (t : Fin cfg0.N) (i : S256x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v0_0).slice (win0_3.rect t)).set ↔ _
  rw [View.set_slice_whole, Rect.mem_set_unit]
  exact Iff.rfl

/-- The 32 blocks cover the 256 rows: row r is in block r / 8. -/
theorem cover0_3 (i : S256x512.Idx) : ∃ t : Fin cfg0.N, (cfg0.win 3).flush t = true ∧ i ∈ ((cfg0.win 3).blk t).view.set := by
  have hi0 : (i 0).val < 256 := (i 0).isLt
  have hi1 : (i 1).val < 512 := (i 1).isLt
  have hN : grid0.N = 32 := N_0
  refine ⟨⟨(i 0).val / 8, by show (i 0).val / 8 < grid0.N; omega⟩, flush0_3 _, ?_⟩
  rw [mem_blk0_3]
  generalize ht : (⟨(i 0).val / 8, by show (i 0).val / 8 < grid0.N; omega⟩ : Fin cfg0.N) = t
  have htv : t.val = (i 0).val / 8 := by rw [← ht]
  obtain ⟨⟨-, -, -, -, e0, e1, -, -⟩, -, -, e4, -⟩ := idx_facts0 t
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 512 ≤ (i 1).val ∧ (i 1).val < win0_3.index t (1 : Fin 2) * 512 + 512; omega

/-- The array of window 3 after the region. -/
theorem final0_3 (c : Dev nD) : (dat0 V c).arrAt 3 cfg0.N = GCentral (V c main_arg0) (V c main_arg1) (V c main_arg2) :=
  (dat0 V c).arrAt_eq_of_cover 3 _ (fun t _ => flushed0_3_eq V c t) cover0_3

/-- What point t writes back into the array of window 4 is block t of the whole-array function. -/
theorem flushed0_4_eq (c : Dev nD) (t : Fin cfg0.N) :
    (dat0 V c).flushed 4 t = ((cfg0.win 4).blk t).view.read (Elt Ideal) (GErr (V c main_arg0) (V c main_arg1) (V c main_arg2)) := by
  show (cfg0.win 4).cut (grid0.coords t) ((dat0 V c).after 4 t) = _
  rw [after0_4]
  unfold out0_4 pre9
  rw [View.canon_unit_zero hzA]
  simp only [View.ld_unit_zero (S := S8x512) hzA, View.ld_unit_zero (S := S8x256x512) hzB]
  funext j
  obtain ⟨p, q, rfl⟩ : ∃ (p : Fin 8) (q : Fin 512), j = ix2 p q := ⟨j 0, j 1, eq_ix2 j⟩
  show k0_pay5 (iblk0 V c 2 t) (k0_pay9 (iblk0 V c 0 t) (iblk0 V c 1 t) (iblk0 V c 2 t)) w0 w1 (ix2 p q)
    = GErr (V c main_arg0) (V c main_arg1) (V c main_arg2) (((cfg0.win 4).blk t).view.emb (ix2 p q))
  rw [err_at, radius_blk, blk0_at, blk2_at, emb0_4, GErr_ix]
  rfl

theorem mem_blk0_4 (t : Fin cfg0.N) (i : S256x512.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v0_1).slice (win0_4.rect t)).set ↔ _
  rw [View.set_slice_whole, Rect.mem_set_unit]
  exact Iff.rfl

/-- The 32 blocks cover the 256 rows: row r is in block r / 8. -/
theorem cover0_4 (i : S256x512.Idx) : ∃ t : Fin cfg0.N, (cfg0.win 4).flush t = true ∧ i ∈ ((cfg0.win 4).blk t).view.set := by
  have hi0 : (i 0).val < 256 := (i 0).isLt
  have hi1 : (i 1).val < 512 := (i 1).isLt
  have hN : grid0.N = 32 := N_0
  refine ⟨⟨(i 0).val / 8, by show (i 0).val / 8 < grid0.N; omega⟩, flush0_4 _, ?_⟩
  rw [mem_blk0_4]
  generalize ht : (⟨(i 0).val / 8, by show (i 0).val / 8 < grid0.N; omega⟩ : Fin cfg0.N) = t
  have htv : t.val = (i 0).val / 8 := by rw [← ht]
  obtain ⟨⟨-, -, -, -, -, -, e0, e1⟩, -, -, e4, -⟩ := idx_facts0 t
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 512 ≤ (i 1).val ∧ (i 1).val < win0_4.index t (1 : Fin 2) * 512 + 512; omega

/-- The array of window 4 after the region. -/
theorem final0_4 (c : Dev nD) : (dat0 V c).arrAt 4 cfg0.N = GErr (V c main_arg0) (V c main_arg1) (V c main_arg2) :=
  (dat0 V c).arrAt_eq_of_cover 4 _ (fun t _ => flushed0_4_eq V c t) cover0_4

/-- What point t writes back into the array of window 5 is block t of the whole-array function. -/
theorem flushed0_5_eq (c : Dev nD) (t : Fin cfg0.N) :
    (dat0 V c).flushed 5 t = ((cfg0.win 5).blk t).view.read (Elt Ideal) (GLam (V c main_arg0) (V c main_arg1) (V c main_arg2)) := by
  show (cfg0.win 5).cut (grid0.coords t) ((dat0 V c).after 5 t) = _
  rw [after0_5]
  unfold out0_5 pre9
  rw [View.canon_unit_zero hzA]
  simp only [View.ld_unit_zero (S := S8x512) hzA, View.ld_unit_zero (S := S8x256x512) hzB]
  funext j
  obtain ⟨p, q, rfl⟩ : ∃ (p : Fin 8) (q : Fin 512), j = ix2 p q := ⟨j 0, j 1, eq_ix2 j⟩
  show k0_pay1 (k0_pay9 (iblk0 V c 0 t) (iblk0 V c 1 t) (iblk0 V c 2 t)) w0 w1 (ix2 p q)
    = GLam (V c main_arg0) (V c main_arg1) (V c main_arg2) (((cfg0.win 5).blk t).view.emb (ix2 p q))
  rw [lam_at, radius_blk, blk0_at, emb0_5, GLam_ix]
  rfl

theorem mem_blk0_5 (t : Fin cfg0.N) (i : S256x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v0_2).slice (win0_5.rect t)).set ↔ _
  rw [View.set_slice_whole, Rect.mem_set_unit]
  exact Iff.rfl

/-- The 32 blocks cover the 256 rows: row r is in block r / 8. -/
theorem cover0_5 (i : S256x512.Idx) : ∃ t : Fin cfg0.N, (cfg0.win 5).flush t = true ∧ i ∈ ((cfg0.win 5).blk t).view.set := by
  have hi0 : (i 0).val < 256 := (i 0).isLt
  have hi1 : (i 1).val < 512 := (i 1).isLt
  have hN : grid0.N = 32 := N_0
  refine ⟨⟨(i 0).val / 8, by show (i 0).val / 8 < grid0.N; omega⟩, flush0_5 _, ?_⟩
  rw [mem_blk0_5]
  generalize ht : (⟨(i 0).val / 8, by show (i 0).val / 8 < grid0.N; omega⟩ : Fin cfg0.N) = t
  have htv : t.val = (i 0).val / 8 := by rw [← ht]
  obtain ⟨-, ⟨e0, e1, -, -⟩, -, e4, -⟩ := idx_facts0 t
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 512 ≤ (i 1).val ∧ (i 1).val < win0_5.index t (1 : Fin 2) * 512 + 512; omega

/-- The array of window 5 after the region. -/
theorem final0_5 (c : Dev nD) : (dat0 V c).arrAt 5 cfg0.N = GLam (V c main_arg0) (V c main_arg1) (V c main_arg2) :=
  (dat0 V c).arrAt_eq_of_cover 5 _ (fun t _ => flushed0_5_eq V c t) cover0_5

/-- What point t writes back into the array of window 6 is block t of the whole-array function. -/
theorem flushed0_6_eq (c : Dev nD) (t : Fin cfg0.N) :
    (dat0 V c).flushed 6 t = ((cfg0.win 6).blk t).view.read (Elt Ideal) (GDelta (V c main_arg0) (V c main_arg1) (V c main_arg2)) := by
  show (cfg0.win 6).cut (grid0.coords t) ((dat0 V c).after 6 t) = _
  rw [after0_6]
  unfold out0_6 pre7 pre8 pre9
  rw [View.canon_unit_zero hzA]
  simp only [View.ld_unit_zero (S := S8x512) hzA, View.ld_unit_zero (S := S8x256x512) hzB]
  funext j
  obtain ⟨p, q, rfl⟩ : ∃ (p : Fin 8) (q : Fin 512), j = ix2 p q := ⟨j 0, j 1, eq_ix2 j⟩
  show k0_pay3 (k0_pay7 (iblk0 V c 0 t) (iblk0 V c 1 t) (iblk0 V c 2 t)) (k0_pay8 (iblk0 V c 0 t) (iblk0 V c 1 t) (iblk0 V c 2 t)) (k0_pay9 (iblk0 V c 0 t) (iblk0 V c 1 t) (iblk0 V c 2 t)) w0 w1 (ix2 p q)
    = GDelta (V c main_arg0) (V c main_arg1) (V c main_arg2) (((cfg0.win 6).blk t).view.emb (ix2 p q))
  rw [delta_at, radius_blk, blk0_at, emb0_6, GDelta_ix]
  rfl

theorem mem_blk0_6 (t : Fin cfg0.N) (i : S256x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v0_3).slice (win0_6.rect t)).set ↔ _
  rw [View.set_slice_whole, Rect.mem_set_unit]
  exact Iff.rfl

/-- The 32 blocks cover the 256 rows: row r is in block r / 8. -/
theorem cover0_6 (i : S256x512.Idx) : ∃ t : Fin cfg0.N, (cfg0.win 6).flush t = true ∧ i ∈ ((cfg0.win 6).blk t).view.set := by
  have hi0 : (i 0).val < 256 := (i 0).isLt
  have hi1 : (i 1).val < 512 := (i 1).isLt
  have hN : grid0.N = 32 := N_0
  refine ⟨⟨(i 0).val / 8, by show (i 0).val / 8 < grid0.N; omega⟩, flush0_6 _, ?_⟩
  rw [mem_blk0_6]
  generalize ht : (⟨(i 0).val / 8, by show (i 0).val / 8 < grid0.N; omega⟩ : Fin cfg0.N) = t
  have htv : t.val = (i 0).val / 8 := by rw [← ht]
  obtain ⟨-, ⟨-, -, e0, e1⟩, -, e4, -⟩ := idx_facts0 t
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 512 ≤ (i 1).val ∧ (i 1).val < win0_6.index t (1 : Fin 2) * 512 + 512; omega

/-- The array of window 6 after the region. -/
theorem final0_6 (c : Dev nD) : (dat0 V c).arrAt 6 cfg0.N = GDelta (V c main_arg0) (V c main_arg1) (V c main_arg2) :=
  (dat0 V c).arrAt_eq_of_cover 6 _ (fun t _ => flushed0_6_eq V c t) cover0_6

end Cert.KernelIdeal.Hand

end
-- ==== Proof.LibEyeWords.lean ====
/-
  The identity matrix as programs spell it: two integer ramps compared for equality and the one-bit answer turned into a
  float. For naturals below 2^32 written as 32-bit words: the sum of two such words is the word of the sum; two words are
  equal exactly when the naturals are; and the comparison's one-bit word, read unsigned as a float — or widened to 32 bits
  and read signed — is over the extended reals 1 where the naturals are equal and 0 elsewhere.
-/
import Idealize.ShloMosaic.PureOps.Ideal

noncomputable section

namespace Cert.LibEyeWords

open Idealize.ShloMosaic

/-- The sum of the 32-bit words of two naturals is the word of their sum. -/
theorem ofNat32_add (a b : Nat) : IntOp.addi (BitVec.ofNat 32 a) (BitVec.ofNat 32 b) = BitVec.ofNat 32 (a + b) := by
  unfold IntOp.addi
  exact (BitVec.ofNat_add a b).symm

/-- Two naturals below 2^32 have equal 32-bit words exactly when they are equal. -/
theorem ofNat32_beq (a b : Nat) (ha : a < 2 ^ 32) (hb : b < 2 ^ 32) :
    (BitVec.ofNat 32 a == BitVec.ofNat 32 b) = decide (a = b) := by
  rw [Bool.eq_iff_iff, beq_iff_eq, decide_eq_true_iff]
  constructor
  · intro h
    have := congrArg BitVec.toNat h
    rw [BitVec.toNat_ofNat, BitVec.toNat_ofNat, Nat.mod_eq_of_lt ha, Nat.mod_eq_of_lt hb] at this
    exact this
  · intro h; rw [h]

/-- The one-bit word of "a = b", read unsigned as a float over the extended reals, is the indicator of a = b. -/
theorem uitofp_eq (a b : Nat) (ha : a < 2 ^ 32) (hb : b < 2 ^ 32) :
    FloatOps.uitofp (F := Ideal) .f32 (IntOp.cmpi .eq (BitVec.ofNat 32 a) (BitVec.ofNat 32 b)) = if a = b then (1 : EReal) else 0 := by
  show ((((IntOp.cmpi .eq (BitVec.ofNat 32 a) (BitVec.ofNat 32 b)).toNat : ℕ) : ℝ) : EReal) = _
  unfold IntOp.cmpi
  simp only [ofNat32_beq a b ha hb]
  by_cases h : a = b
  · rw [if_pos h, decide_eq_true h]; simp
  · rw [if_neg h, decide_eq_false h]; simp

/-- The same word widened to 32 bits and read signed. -/
theorem sitofp_eq_wide (a b : Nat) (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  show (((((IntOp.cmpi .eq (BitVec.ofNat 32 a) (BitVec.ofNat 32 b)).setWidth 32).toInt : ℤ) : ℝ) : EReal) = _
  unfold IntOp.cmpi
  simp only [ofNat32_beq a b ha hb]
  by_cases h : a = b
  · rw [if_pos h, decide_eq_true h]; simp
  · rw [if_neg h, decide_eq_false h]; simp

end Cert.LibEyeWords

end
-- ==== Proof.KVal1a.lean ====
/-
  The second region's two payloads read at an entry (b, r, q) of the 8 × 128 × 512 block. In the first case the entry is
  the generator entry times the slope of batch row b and column q (the slope block, given a middle axis of one and laid
  along the 128 rows). In the second it is |β|(b, r) — the 8 × 128 columns cut from the |β| block, given a last axis of
  one and laid along the 512 columns — times the indicator that row r of this band, r + the band's offset, is column q.
-/
import proofs.«140390_j59004260712750_2_alg».proof.Proof.Gen.KernelIdeal.Skeleton
import proofs.«140390_j59004260712750_2_alg».proof.Proof.Spec
import proofs.«140390_j59004260712750_2_alg».proof.Proof.LibEyeWords
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.ReluZono

section AnyValues
variable {F : FTy → Type} [FloatOps F]

/-- The slope block laid along the rows: entry (b, r, q) reads the block at (b, q). -/
theorem lay_rows (v6 : Vec F S8x512 .f32) (b : Fin 8) (r : Fin 128) (q : Fin 512) :
    broadcastTo S8x128x512 (shapeCast S8x1x512 (shapeCast S8x512 v6 shapeCasts_S8x512_S8x512) shapeCasts_S8x512_S8x1x512)
      broadcasts_S8x1x512_S8x128x512 (ix3 b r q) = v6 (ix2 b q) := by
  rw [shapeCast_self]
  refine (broadcastTo_apply _ _ (ix3 b r q) (ix3 b (0 : Fin 1) q) (fun a => by
    match a with
    | ⟨0, _⟩ => rfl
    | ⟨1, _⟩ => rfl
    | ⟨2, _⟩ => rfl)).trans ?_
  exact shapeCast_apply _ _ _ (ix2 b q) (by
    rw [Shape.rowMajor_val_two, Shape.rowMajor_val_three]
    show b.val * 512 + q.val = (b.val * 1 + 0) * 512 + q.val
    omega)

/-- The |β| columns laid along the 512 columns: entry (b, r, q) reads them at (b, r). -/
theorem lay_cols (v17 : Vec F S8x128 .f32) (b : Fin 8) (r : Fin 128) (q : Fin 512) :
    broadcastTo S8x128x512 (shapeCast S8x128x1 (shapeCast S8x128 v17 shapeCasts_S8x128_S8x128) shapeCasts_S8x128_S8x128x1)
      broadcasts_S8x128x1_S8x128x512 (ix3 b r q) = v17 (ix2 b r) := by
  rw [shapeCast_self]
  refine (broadcastTo_apply _ _ (ix3 b r q) (ix3 b r (0 : Fin 1)) (fun a => by
    match a with
    | ⟨0, _⟩ => rfl
    | ⟨1, _⟩ => rfl
    | ⟨2, _⟩ => rfl)).trans ?_
  exact shapeCast_apply _ _ _ (ix2 b r) (by
    rw [Shape.rowMajor_val_two, Shape.rowMajor_val_three]
    show b.val * 128 + r.val = (b.val * 128 + r.val) * 1 + 0
    omega)

/-- A 128 × 512 mask laid along the 8 batch rows: entry (b, r, q) reads it at (r, q). -/
theorem lay_batch (v15 : FVec F S128x512 .f32) (b : Fin 8) (r : Fin 128) (q : Fin 512) :
    broadcastTo S8x128x512 (shapeCast S1x128x512 v15 shapeCasts_S128x512_S1x128x512)
      broadcasts_S1x128x512_S8x128x512 (ix3 b r q) = v15 (ix2 r q) := by
  refine (broadcastTo_apply _ _ (ix3 b r q) (ix3 (0 : Fin 1) r q) (fun a => by
    match a with
    | ⟨0, _⟩ => rfl
    | ⟨1, _⟩ => rfl
    | ⟨2, _⟩ => rfl)).trans ?_
  exact shapeCast_apply _ _ _ (ix2 r q) (by
    rw [Shape.rowMajor_val_two, Shape.rowMajor_val_three]
    show r.val * 512 + q.val = (0 * 128 + r.val) * 512 + q.val
    omega)

/-- The first case's payload at an entry. -/
theorem payA_at (v6 : Vec F S8x512 .f32) (v8 : Vec F S8x128x512 .f32) (b : Fin 8) (r : Fin 128) (q : Fin 512) :
    k1_pay1 v6 v8 (ix3 b r q) = FloatOps.mulf (v8 (ix3 b r q)) (v6 (ix2 b q)) := by
  unfold k1_pay1
  show FloatOps.mulf (v8 (ix3 b r q)) _ = _
  rw [lay_rows]

/-- The band's mask word at (r, q): row r plus the band's offset against column q. -/
def maskWord (i : grid1.Coords) (r : Fin 128) (q : Fin 512) : BitVec 32 :=
  (IntOp.cmpi .eq (IntOp.addi (BitVec.ofNat 32 (0 * 128 + r.val)) (k1_mult1 i)) (BitVec.ofNat 32 (0 * 128 + q.val))).setWidth 32

/-- The second case's payload at an entry. -/
theorem payB_at (i : grid1.Coords) (v17 : Vec F S8x128 .f32) (b : Fin 8) (r : Fin 128) (q : Fin 512) :
    k1_pay2 i v17 (ix3 b r q) = FloatOps.mulf (v17 (ix2 b r)) (FloatOps.sitofp .f32 (maskWord i r q)) := by
  unfold k1_pay2
  show FloatOps.mulf (F := F) (φ := .f32) _ _ = _
  rw [lay_cols, lay_batch]
  rfl

end AnyValues

/-- Over the extended reals the mask word is the identity matrix's entry, when the offset is a small natural. -/
theorem mask_eye (i : grid1.Coords) (off : Nat) (hoff : k1_mult1 i = BitVec.ofNat 32 off) (hlt : off ≤ 384) (r : Fin 128) (q : Fin 512) :
    FloatOps.sitofp (F := Ideal) .f32 (maskWord i r q) = eyeAt (off + r.val) q.val := by
  unfold maskWord eyeAt
  have hr : r.val < 128 := r.isLt
  have hq : q.val < 512 := q.isLt
  rw [hoff, Cert.LibEyeWords.ofNat32_add, show 0 * 128 + r.val + off = off + r.val by omega, show 0 * 128 + q.val = q.val by omega]
  exact Cert.LibEyeWords.sitofp_eq_wide _ _ (by omega) (by omega)

end Cert.KernelIdeal.Hand

end
-- ==== Proof.KVal1.lean ====
/-
  What the second region leaves in the [256, 768, 512] result array, over the extended reals, from the contents V it
  enters with: entry (p, R, q) is, for R < 256, the generator entry (p, R, q) times the slope at (p, q); for R ≥ 256 it is
  the |β| array at (p, R − 256) where R − 256 = q and 0 elsewhere. Point t of the 32 × 6 grid writes rows 8·(t / 6) … + 7,
  middle rows 128·(t mod 6) … + 127; the 192 blocks tile the array.
-/
import proofs.«140390_j59004260712750_2_alg».proof.Proof.KRun
import proofs.«140390_j59004260712750_2_alg».proof.Proof.KVal1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReluZono Idealize.ShloMosaic.ValueIdx

theorem hzC : (![0, 0, 0] : Fin 3 → Nat) = fun _ => 0 := funext fun a => by fin_cases a <;> rfl
theorem hzA1 : (![0, 0] : Fin 2 → Nat) = fun _ => 0 := funext fun a => by fin_cases a <;> rfl

/-- The index maps, the case condition and the band's offset over the grid: point t is batch block t / 6 and middle
    block t mod 6; the generator window stays at middle block 1 from t mod 6 = 1 on. -/
theorem idx_facts1 : ∀ t : Fin cfg1.N,
    (win1_3.index t (0 : Fin 3) = t.val / 6 ∧ win1_3.index t (1 : Fin 3) = t.val % 6 ∧ win1_3.index t (2 : Fin 3) = 0)
    ∧ (win1_1.index t (0 : Fin 2) = t.val / 6 ∧ win1_1.index t (1 : Fin 2) = 0 ∧ win1_2.index t (0 : Fin 2) = t.val / 6 ∧ win1_2.index t (1 : Fin 2) = 0)
    ∧ (win1_0.index t (0 : Fin 3) = t.val / 6 ∧ win1_0.index t (1 : Fin 3) = min (t.val % 6) 1 ∧ win1_0.index t (2 : Fin 3) = 0)
    ∧ ((k1_cond2 (grid1.coords t) = 1#1) ↔ 2 ≤ t.val % 6)
    ∧ t.val < 192
    ∧ (2 ≤ t.val % 6 → k1_mult1 (grid1.coords t) = BitVec.ofNat 32 (128 * (t.val % 6 - 2)) ∧ k1_off1 (grid1.coords t) 0 = 0
        ∧ k1_off1 (grid1.coords t) 1 = 128 * (t.val % 6 - 2)) :=
  (by decide +kernel : ∀ t : Fin grid1.N, _)

/-- Batch row b of point t's blocks, and middle row r of its output block. -/
def rowOf1 (t : Fin cfg1.N) (b : Fin 8) : Fin 256 := ⟨8 * (t.val / 6) + b.val, by have := (idx_facts1 t).2.2.2.2.1; omega⟩
def midOf1 (t : Fin cfg1.N) (r : Fin 128) : Fin 768 := ⟨128 * (t.val % 6) + r.val, by have := Nat.mod_lt t.val (show 0 < 6 by omega); omega⟩

theorem emb1_3 (t : Fin cfg1.N) (b : Fin 8) (r : Fin 128) (q : Fin 512) :
    ((cfg1.win 3).blk t).view.emb (ix3 b r q) = ix3 (rowOf1 t b) (midOf1 t r) q := by
  obtain ⟨⟨e0, e1, e2⟩, -, -, -, -, -⟩ := idx_facts1 t
  funext a; apply Fin.ext
  match a with
  | ⟨0, _⟩ => show win1_3.index t (0 : Fin 3) * 8 + 1 * b.val = 8 * (t.val / 6) + b.val; omega
  | ⟨1, _⟩ => show win1_3.index t (1 : Fin 3) * 128 + 1 * r.val = 128 * (t.val % 6) + r.val; omega
  | ⟨2, _⟩ => show win1_3.index t (2 : Fin 3) * 512 + 1 * q.val = q.val; omega
theorem emb1_1 (t : Fin cfg1.N) (b : Fin 8) (q : Fin 512) :
    ((cfg1.win 1).blk t).view.emb (ix2 b q) = ix2 (rowOf1 t b) q := by
  obtain ⟨-, ⟨e0, e1, -, -⟩, -, -, -, -⟩ := idx_facts1 t
  funext a; apply Fin.ext
  match a with
  | ⟨0, _⟩ => show win1_1.index t (0 : Fin 2) * 8 + 1 * b.val = 8 * (t.val / 6) + b.val; omega
  | ⟨1, _⟩ => show win1_1.index t (1 : Fin 2) * 512 + 1 * q.val = q.val; omega
theorem emb1_2 (t : Fin cfg1.N) (b : Fin 8) (q : Fin 512) :
    ((cfg1.win 2).blk t).view.emb (ix2 b q) = ix2 (rowOf1 t b) q := by
  obtain ⟨-, ⟨-, -, e0, e1⟩, -, -, -, -⟩ := idx_facts1 t
  funext a; apply Fin.ext
  match a with
  | ⟨0, _⟩ => show win1_2.index t (0 : Fin 2) * 8 + 1 * b.val = 8 * (t.val / 6) + b.val; omega
  | ⟨1, _⟩ => show win1_2.index t (1 : Fin 2) * 512 + 1 * q.val = q.val; omega
theorem emb1_0 (t : Fin cfg1.N) (h : t.val % 6 < 2) (b : Fin 8) (r : Fin 128) (q : Fin 512) (R : Fin 256) (hR : R.val = 128 * (t.val % 6) + r.val) :
    ((cfg1.win 0).blk t).view.emb (ix3 b r q) = ix3 (rowOf1 t b) R q := by
  obtain ⟨-, -, ⟨e0, e1, e2⟩, -, -, -⟩ := idx_facts1 t
  funext a; apply Fin.ext
  match a with
  | ⟨0, _⟩ => show win1_0.index t (0 : Fin 3) * 8 + 1 * b.val = 8 * (t.val / 6) + b.val; omega
  | ⟨1, _⟩ => show win1_0.index t (1 : Fin 3) * 128 + 1 * r.val = R.val; omega
  | ⟨2, _⟩ => show win1_0.index t (2 : Fin 3) * 512 + 1 * q.val = q.val; omega

variable (V : (c : Dev nD) → (b : Ref sig .tc) → Buf (Elt Ideal) ((c : Thread nD τ).loc b))

theorem blk1_0_at (c : Dev nD) (t : Fin cfg1.N) (h : t.val % 6 < 2) (b : Fin 8) (r : Fin 128) (q : Fin 512) (R : Fin 256)
    (hR : R.val = 128 * (t.val % 6) + r.val) : iblk1 V c 0 t (ix3 b r q) = V c main_arg1 (ix3 (rowOf1 t b) R q) := by
  show V c main_arg1 (((cfg1.win 0).blk t).view.emb (ix3 b r q)) = _
  rw [emb1_0 t h b r q R hR]
theorem blk1_1_at (c : Dev nD) (t : Fin cfg1.N) (b : Fin 8) (q : Fin 512) :
    iblk1 V c 1 t (ix2 b q) = V c main_v0_2 (ix2 (rowOf1 t b) q) := by
  show V c main_v0_2 (((cfg1.win 1).blk t).view.emb (ix2 b q)) = _
  rw [emb1_1]
theorem blk1_2_at (c : Dev nD) (t : Fin cfg1.N) (b : Fin 8) (q : Fin 512) :
    iblk1 V c 2 t (ix2 b q) = V c main_v0_3 (ix2 (rowOf1 t b) q) := by
  show V c main_v0_3 (((cfg1.win 2).blk t).view.emb (ix2 b q)) = _
  rw [emb1_2]

/-- The 8 × 128 columns cut from a block at the band's offset. -/
theorem ld_cols (i : grid1.Coords) (h2 : k1_cond2 i = 1#1) (x2 : Vec Ideal S8x512 .f32) (b : Fin 8) (r : Fin 128) (C : Fin 512)
    (h0 : k1_off1 i 0 = 0) (hC : C.val = k1_off1 i 1 + r.val) : View.ld x2 (sD i h2) (ix2 b r) = x2 (ix2 b C) := by
  show x2 ((sD i h2).emb (ix2 b r)) = _
  refine congrArg x2 ?_
  funext a; apply Fin.ext
  match a with
  | ⟨0, _⟩ => rw [Rect.emb_apply]; show k1_off1 i 0 + 1 * b.val = b.val; omega
  | ⟨1, _⟩ => rw [Rect.emb_apply]; show k1_off1 i 1 + 1 * r.val = C.val; omega

theorem pdAt_low (a1 : A3) (lam dl : A2) (P : Fin 256) (R : Fin 768) (q : Fin 512) (R' : Fin 256) (h : R'.val = R.val) :
    pdAt a1 lam dl P R q = FloatOps.mulf (F := Ideal) (φ := .f32) (a1 (ix3 P R' q)) (lam (ix2 P q)) := by
  unfold pdAt
  rw [dif_pos (show R.val < 256 by have := R'.isLt; omega)]
  have e : (⟨R.val, by have := R'.isLt; omega⟩ : Fin 256) = R' := Fin.ext h.symm
  rw [e]
theorem pdAt_high (a1 : A3) (lam dl : A2) (P : Fin 256) (R : Fin 768) (q : Fin 512) (C : Fin 512) (h : R.val = 256 + C.val) :
    pdAt a1 lam dl P R q = FloatOps.mulf (F := Ideal) (φ := .f32) (dl (ix2 P C)) (eyeAt C.val q.val) := by
  unfold pdAt
  rw [dif_neg (show ¬ R.val < 256 by omega)]
  have e : (⟨R.val - 256, by have := R.isLt; omega⟩ : Fin 512) = C := Fin.ext (by show R.val - 256 = C.val; omega)
  rw [e, show R.val - 256 = C.val by omega]
theorem GPd_ix (a1 : A3) (lam dl : A2) (P : Fin 256) (R : Fin 768) (q : Fin 512) : GPd a1 lam dl (ix3 P R q) = pdAt a1 lam dl P R q := rfl

/-- What point t writes back is block t of the whole-array function of the arrays the region entered with. -/
theorem flushed1_3_eq (c : Dev nD) (t : Fin cfg1.N) :
    (dat1 V c).flushed 3 t = ((cfg1.win 3).blk t).view.read (Elt Ideal) (GPd (V c main_arg1) (V c main_v0_2) (V c main_v0_3)) := by
  show (cfg1.win 3).cut (grid1.coords t) ((dat1 V c).after 3 t) = _
  obtain ⟨-, -, -, hcond, hN, hB⟩ := idx_facts1 t
  have hm6 : t.val % 6 < 6 := Nat.mod_lt _ (by omega)
  by_cases h2 : k1_cond2 (grid1.coords t) = 1#1
  · have hj : 2 ≤ t.val % 6 := hcond.mp h2
    obtain ⟨hm, ho0, ho1⟩ := hB hj
    rw [after1_3B V c t h2]
    unfold out1_3B
    rw [View.canon_unit_zero hzC]
    funext j
    obtain ⟨b, r, q, rfl⟩ : ∃ (b : Fin 8) (r : Fin 128) (q : Fin 512), j = ix3 b r q := ⟨j 0, j 1, j 2, eq_ix3 j⟩
    show k1_pay2 (grid1.coords t) (View.ld (iblk1 V c 2 t) (sD (grid1.coords t) h2)) (ix3 b r q)
      = GPd (V c main_arg1) (V c main_v0_2) (V c main_v0_3) (((cfg1.win 3).blk t).view.emb (ix3 b r q))
    have hr : r.val < 128 := r.isLt
    rw [payB_at, mask_eye _ (128 * (t.val % 6 - 2)) hm (by omega),
      ld_cols _ h2 _ b r (⟨128 * (t.val % 6 - 2) + r.val, by omega⟩ : Fin 512) ho0 (by show 128 * (t.val % 6 - 2) + r.val = _; omega),
      blk1_2_at, emb1_3, GPd_ix,
      pdAt_high _ _ _ _ _ _ (⟨128 * (t.val % 6 - 2) + r.val, by omega⟩ : Fin 512) (by show 128 * (t.val % 6) + r.val = 256 + (128 * (t.val % 6 - 2) + r.val); omega)]
  · have hj : t.val % 6 < 2 := by
      by_contra hc; exact h2 (hcond.mpr (by omega))
    rw [after1_3A V c t h2]
    unfold out1_3A
    rw [View.canon_unit_zero hzC]
    simp only [View.ld_unit_zero (S := S8x512) hzA1, View.ld_unit_zero (S := S8x128x512) hzC]
    funext j
    obtain ⟨b, r, q, rfl⟩ : ∃ (b : Fin 8) (r : Fin 128) (q : Fin 512), j = ix3 b r q := ⟨j 0, j 1, j 2, eq_ix3 j⟩
    show k1_pay1 (iblk1 V c 1 t) (iblk1 V c 0 t) (ix3 b r q)
      = GPd (V c main_arg1) (V c main_v0_2) (V c main_v0_3) (((cfg1.win 3).blk t).view.emb (ix3 b r q))
    have hr : r.val < 128 := r.isLt
    rw [payA_at, blk1_1_at,
      blk1_0_at V c t hj b r q (⟨128 * (t.val % 6) + r.val, by omega⟩ : Fin 256) rfl,
      emb1_3, GPd_ix,
      pdAt_low _ _ _ _ _ _ (⟨128 * (t.val % 6) + r.val, by omega⟩ : Fin 256) rfl]

theorem mem_blk1_3 (t : Fin cfg1.N) (i : S256x768x512.Idx) :
    i ∈ ((cfg1.win 3).blk t).view.set ↔ ∀ a : Fin 3, win1_3.index t a * S8x128x512.size a ≤ (i a).val ∧ (i a).val < win1_3.index t a * S8x128x512.size a + S8x128x512.size a := by
  show i ∈ ((View.whole main_v1).slice (win1_3.rect t)).set ↔ _
  rw [View.set_slice_whole, Rect.mem_set_unit]
  exact Iff.rfl

/-- The 192 blocks cover the array: entry (p, R, ·) is in block 6·(p / 8) + R / 128. -/
theorem cover1_3 (i : S256x768x512.Idx) : ∃ t : Fin cfg1.N, (cfg1.win 3).flush t = true ∧ i ∈ ((cfg1.win 3).blk t).view.set := by
  have hi0 : (i 0).val < 256 := (i 0).isLt
  have hi1 : (i 1).val < 768 := (i 1).isLt
  have hi2 : (i 2).val < 512 := (i 2).isLt
  have hN : grid1.N = 192 := N_1
  refine ⟨⟨6 * ((i 0).val / 8) + (i 1).val / 128, by show _ < grid1.N; omega⟩, flush1_3 _, ?_⟩
  rw [mem_blk1_3]
  generalize ht : (⟨6 * ((i 0).val / 8) + (i 1).val / 128, by show _ < grid1.N; omega⟩ : Fin cfg1.N) = t
  have htv : t.val = 6 * ((i 0).val / 8) + (i 1).val / 128 := by rw [← ht]
  obtain ⟨⟨e0, e1, e2⟩, -, -, -, -, -⟩ := idx_facts1 t
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 128 ≤ (i 1).val ∧ (i 1).val < win1_3.index t (1 : Fin 3) * 128 + 128; omega
  | ⟨2, _⟩ => show win1_3.index t (2 : Fin 3) * 512 ≤ (i 2).val ∧ (i 2).val < win1_3.index t (2 : Fin 3) * 512 + 512; omega

/-- The result array after the region. -/
theorem final1_3 (c : Dev nD) : (dat1 V c).arrAt 3 cfg1.N = GPd (V c main_arg1) (V c main_v0_2) (V c main_v0_3) :=
  (dat1 V c).arrAt_eq_of_cover 3 _ (fun t _ => flushed1_3_eq V c t) cover1_3

end Cert.KernelIdeal.Hand

end
-- ==== Proof.KValue.lean ====
/-
  The idealized kernel's run with its three results named, over the extended reals: the new centres, the new generators
  and the new errors as the whole-array functions of the three argument arrays (the second region reads the slopes and
  the |β| the first one wrote), the arguments unchanged.
-/
import proofs.«140390_j59004260712750_2_alg».proof.Proof.KVal0
import proofs.«140390_j59004260712750_2_alg».proof.Proof.KVal1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReluZono Idealize.ShloMosaic.ValueIdx

variable (m : (ℓ : Loc nD τ sig) → Buf (Elt Ideal) ℓ) (ρ : Dev nD → PrngReg)

theorem final_central (c : Dev nD) : (dat0 (V0 m ρ) c).arrAt 3 cfg0.N
    = GCentral (m ((c.tc : Thread nD τ).loc main_arg0)) (m ((c.tc : Thread nD τ).loc main_arg1)) (m ((c.tc : Thread nD τ).loc main_arg2)) :=
  final0_3 (V0 m ρ) c
theorem final_err (c : Dev nD) : (dat0 (V0 m ρ) c).arrAt 4 cfg0.N
    = GErr (m ((c.tc : Thread nD τ).loc main_arg0)) (m ((c.tc : Thread nD τ).loc main_arg1)) (m ((c.tc : Thread nD τ).loc main_arg2)) :=
  final0_4 (V0 m ρ) c
theorem final_lam (c : Dev nD) : (dat0 (V0 m ρ) c).arrAt 5 cfg0.N
    = GLam (m ((c.tc : Thread nD τ).loc main_arg0)) (m ((c.tc : Thread nD τ).loc main_arg1)) (m ((c.tc : Thread nD τ).loc main_arg2)) :=
  final0_5 (V0 m ρ) c
theorem final_delta (c : Dev nD) : (dat0 (V0 m ρ) c).arrAt 6 cfg0.N
    = GDelta (m ((c.tc : Thread nD τ).loc main_arg0)) (m ((c.tc : Thread nD τ).loc main_arg1)) (m ((c.tc : Thread nD τ).loc main_arg2)) :=
  final0_6 (V0 m ρ) c
theorem final_pd (c : Dev nD) : (dat1 (V1 m ρ) c).arrAt 3 cfg1.N
    = GPd (m ((c.tc : Thread nD τ).loc main_arg1))
        (GLam (m ((c.tc : Thread nD τ).loc main_arg0)) (m ((c.tc : Thread nD τ).loc main_arg1)) (m ((c.tc : Thread nD τ).loc main_arg2)))
        (GDelta (m ((c.tc : Thread nD τ).loc main_arg0)) (m ((c.tc : Thread nD τ).loc main_arg1)) (m ((c.tc : Thread nD τ).loc main_arg2))) := by
  rw [final1_3 (V1 m ρ) c, V1_main_arg1, V1_main_v0_2, V1_main_v0_3, final_lam, final_delta]

/-- The run, read: each result at its function of the arguments. -/
theorem run_value : θ_run defs (onTc (τ := τ) (main (F := Ideal))) ⟨m, fun _ => 0, ρ⟩ (fun r => ∀ c : Dev nD,
      r.2.mem ((c.tc : Thread nD τ).loc main_v0_0)
        = GCentral (m ((c.tc : Thread nD τ).loc main_arg0)) (m ((c.tc : Thread nD τ).loc main_arg1)) (m ((c.tc : Thread nD τ).loc main_arg2))
      ∧ r.2.mem ((c.tc : Thread nD τ).loc main_v1)
        = GPd (m ((c.tc : Thread nD τ).loc main_arg1))
            (GLam (m ((c.tc : Thread nD τ).loc main_arg0)) (m ((c.tc : Thread nD τ).loc main_arg1)) (m ((c.tc : Thread nD τ).loc main_arg2)))
            (GDelta (m ((c.tc : Thread nD τ).loc main_arg0)) (m ((c.tc : Thread nD τ).loc main_arg1)) (m ((c.tc : Thread nD τ).loc main_arg2)))
      ∧ r.2.mem ((c.tc : Thread nD τ).loc main_v0_1)
        = GErr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (final_central m ρ c), (h c).2.1.trans (final_pd m ρ c), (h c).2.2.1.trans (final_err m ρ c), (h c).2.2.2⟩)
    (run_named m ρ)

end Cert.KernelIdeal.Hand

end
-- ==== Proof.RefTerms.lean ====
/-
  The reference program's results as composed terms of its three argument arrays.

  The program takes a centre c (a0), generators pd (a1) and an error term err (a2) of a zonotope and
  computes the ReLU relaxation of it, coordinate by coordinate:
    r      = Σ_n |pd[·,n,·]| + |err|                    the radius
    [l, u] = [c − r, c + r]                             the interval
    ratio  = (relu u − relu l) / ((u − l) + ε)          the slope of the chord
    λ      = clip (nan_to_num (where (u < 0) 0 (where (l ≥ 0) 1 ratio))) 0 1
    β      = (relu l − λ·l) · ½                         the offset
    δ      = |β|
  and returns the new centre λ·c + β, the generators scaled by λ with the δ placed on a diagonal
  (δ[p,k] · [k = q]) appended along the generator axis, and the error scaled by λ.
  Each definition below is one printed operation (or one outlined helper) applied to the earlier names.
-/
import proofs.«140390_j59004260712750_2_alg».proof.ReferenceIdeal

noncomputable section

namespace Cert.ReferenceIdeal.Terms

open Cert.ReferenceIdeal Idealize.ShloMosaic
open Facts₀ Facts

variable {F : FTy → Type} [FloatOps F] [Cert.ReferenceIdeal.Facts]

/-- A scalar constant splat over the 256 × 512 coordinates. -/
def splat (b : BitVec 32) : FVec F S256x512 .f32 :=
  broadcastInDim S256x512 ![] bcast_S_S256x512 (constant (F := F) S_ .f32 b)

/-- The radius: the sum over the generator axis of |pd|, from zero, plus |err|. -/
def radius (a1 : FVec F S256x256x512 .f32) (a2 : FVec F S256x512 .f32) : FVec F S256x512 .f32 :=
  addf (Host.reduceAdd (Host.absf a1) (constant (F := F) S_ .f32 0x00000000#32) reducesTo_S256x256x512_S256x512_d1 h_S_)
    (Host.absf a2)

/-- The interval's lower end c − r. -/
def lower (a0 : FVec F S256x512 .f32) (a1 : FVec F S256x256x512 .f32) (a2 : FVec F S256x512 .f32) : FVec F S256x512 .f32 :=
  subf a0 (radius a1 a2)

/-- The interval's upper end c + r. -/
def upper (a0 : FVec F S256x512 .f32) (a1 : FVec F S256x256x512 .f32) (a2 : FVec F S256x512 .f32) : FVec F S256x512 .f32 :=
  addf a0 (radius a1 a2)

/-- relu of the lower end: max(l, 0). -/
def rl (a0 : FVec F S256x512 .f32) (a1 : FVec F S256x256x512 .f32) (a2 : FVec F S256x512 .f32) : FVec F S256x512 .f32 :=
  maximumf (lower a0 a1 a2) (splat 0x00000000#32)

/-- relu of the upper end: max(u, 0). -/
def ru (a0 : FVec F S256x512 .f32) (a1 : FVec F S256x256x512 .f32) (a2 : FVec F S256x512 .f32) : FVec F S256x512 .f32 :=
  maximumf (upper a0 a1 a2) (splat 0x00000000#32)

/-- The chord's slope (relu u − relu l) / ((u − l) + ε), ε = 1e-8. -/
def ratio (a0 : FVec F S256x512 .f32) (a1 : FVec F S256x256x512 .f32) (a2 : FVec F S256x512 .f32) : FVec F S256x512 .f32 :=
  Host.divf (subf (ru a0 a1 a2) (rl a0 a1 a2))
    (addf (subf (upper a0 a1 a2) (lower a0 a1 a2)) (splat 0x322BCC77#32))

/-- Where l ≥ 0 the slope is one. -/
def lam1 (a0 : FVec F S256x512 .f32) (a1 : FVec F S256x256x512 .f32) (a2 : FVec F S256x512 .f32) : FVec F S256x512 .f32 :=
  select (cmpf .oge (lower a0 a1 a2) (splat 0x00000000#32))
    (broadcastInDim S256x512 ![] bcast_S_S256x512 (id (constant (F := F) S_ .f32 0x3F800000#32)))
    (ratio a0 a1 a2)

/-- Where u < 0 the slope is zero. -/
def lam2 (a0 : FVec F S256x512 .f32) (a1 : FVec F S256x256x512 .f32) (a2 : FVec F S256x512 .f32) : FVec F S256x512 .f32 :=
  select (cmpf .olt (upper a0 a1 a2) (splat 0x00000000#32))
    (broadcastInDim S256x512 ![] bcast_S_S256x512 (id (constant (F := F) S_ .f32 0x00000000#32)))
    (lam1 a0 a1 a2)

/-- nan_to_num, first select: a NaN becomes zero. -/
def n0 (a0 : FVec F S256x512 .f32) (a1 : FVec F S256x256x512 .f32) (a2 : FVec F S256x512 .f32) : FVec F S256x512 .f32 :=
  select (cmpf .une (lam2 a0 a1 a2) (lam2 a0 a1 a2))
    (broadcastInDim S256x512 ![] bcast_S_S256x512 (id (constant (F := F) S_ .f32 0x00000000#32)))
    (lam2 a0 a1 a2)

/-- nan_to_num, second select: +∞ becomes the largest finite value. -/
def n1 (a0 : FVec F S256x512 .f32) (a1 : FVec F S256x256x512 .f32) (a2 : FVec F S256x512 .f32) : FVec F S256x512 .f32 :=
  select (cmpf .oeq (n0 a0 a1 a2) (splat 0x7F800000#32))
    (broadcastInDim S256x512 ![] bcast_S_S256x512 (constant (F := F) S_ .f32 0x7F7FFFFF#32))
    (n0 a0 a1 a2)

/-- nan_to_num, third select: −∞ becomes the smallest finite value. -/
def n2 (a0 : FVec F S256x512 .f32) (a1 : FVec F S256x256x512 .f32) (a2 : FVec F S256x512 .f32) : FVec F S256x512 .f32 :=
  select (cmpf .oeq (n1 a0 a1 a2) (splat 0xFF800000#32))
    (broadcastInDim S256x512 ![] bcast_S_S256x512 (constant (F := F) S_ .f32 0xFF7FFFFF#32))
    (n1 a0 a1 a2)

/-- The slope λ: clipped to [0, 1], min(1, max(0, ·)). -/
def lam (a0 : FVec F S256x512 .f32) (a1 : FVec F S256x256x512 .f32) (a2 : FVec F S256x512 .f32) : FVec F S256x512 .f32 :=
  minimumf (broadcastInDim S256x512 ![] bcast_S_S256x512 (id (constant (F := F) S_ .f32 0x3F800000#32)))
    (maximumf (broadcastInDim S256x512 ![] bcast_S_S256x512 (id (constant (F := F) S_ .f32 0x00000000#32))) (n2 a0 a1 a2))

/-- The offset β = (relu l − λ·l) · ½. -/
def beta (a0 : FVec F S256x512 .f32) (a1 : FVec F S256x256x512 .f32) (a2 : FVec F S256x512 .f32) : FVec F S256x512 .f32 :=
  mulf (subf (rl a0 a1 a2) (mulf (lam a0 a1 a2) (lower a0 a1 a2))) (splat 0x3F000000#32)

/-- δ = |β|. -/
def delta (a0 : FVec F S256x512 .f32) (a1 : FVec F S256x256x512 .f32) (a2 : FVec F S256x512 .f32) : FVec F S256x512 .f32 :=
  Host.absf (beta a0 a1 a2)

/-- The new centre λ·c + β. -/
def newCentral (a0 : FVec F S256x512 .f32) (a1 : FVec F S256x256x512 .f32) (a2 : FVec F S256x512 .f32) : FVec F S256x512 .f32 :=
  addf (mulf (lam a0 a1 a2) a0) (beta a0 a1 a2)

/-- The generators scaled by λ (λ broadcast along the generator axis). -/
def scaled (a0 : FVec F S256x512 .f32) (a1 : FVec F S256x256x512 .f32) (a2 : FVec F S256x512 .f32) : FVec F S256x256x512 .f32 :=
  mulf a1 (broadcastInDim S256x256x512 ![0, 1, 2] bcast_S256x1x512_S256x256x512_0_1_2
    (broadcastInDim S256x1x512 ![0, 2] bcast_S256x512_S256x1x512_0_2 (lam a0 a1 a2)))

/-- The 512 × 512 identity matrix: [row + 0 = column] as a float. -/
def eye : FVec F S512x512 .f32 :=
  uitofp .f32 (cmpi .eq (addi (iotaInDim S512x512 32 0) (broadcastInDim S512x512 ![] bcast_S_S512x512 (constantI S_ 32 0#32)))
    (iotaInDim S512x512 32 1))

/-- δ on a diagonal: δ[p,k] · eye[k,q]. -/
def diag (a0 : FVec F S256x512 .f32) (a1 : FVec F S256x256x512 .f32) (a2 : FVec F S256x512 .f32) : FVec F S256x512x512 .f32 :=
  mulf (broadcastInDim S256x512x512 ![0, 1, 2] bcast_S256x512x1_S256x512x512_0_1_2
      (broadcastInDim S256x512x1 ![0, 1] bcast_S256x512_S256x512x1_0_1 (delta a0 a1 a2)))
    (broadcastInDim S256x512x512 ![0, 1, 2] bcast_S1x512x512_S256x512x512_0_1_2
      (broadcastInDim S1x512x512 ![1, 2] bcast_S512x512_S1x512x512_1_2 (eye (F := F))))

/-- The new generators: the scaled ones, then the diagonal ones, along the generator axis. -/
def newPd (a0 : FVec F S256x512 .f32) (a1 : FVec F S256x256x512 .f32) (a2 : FVec F S256x512 .f32) : FVec F S256x768x512 .f32 :=
  concatenate S256x768x512 1 [⟨S256x256x512, scaled a0 a1 a2⟩, ⟨S256x512x512, diag a0 a1 a2⟩]
    concatenates_S256x256x512_S256x512x512_S256x768x512_d1

/-- The new error term λ·err. -/
def newErr (a0 : FVec F S256x512 .f32) (a1 : FVec F S256x256x512 .f32) (a2 : FVec F S256x512 .f32) : FVec F S256x512 .f32 :=
  mulf (lam a0 a1 a2) a2

end Cert.ReferenceIdeal.Terms

end
-- ==== Proof.RefOps.lean ====
/-
  The reference program's @main as the list of its host operations in order — the six calls of module-local
  functions unfolded at their call sites over the calls' own buffers — with the facts the run takes of the
  list: @main is the list run in order, nothing is scoped, every operation touches TensorCore buffers only.

  The operations compute, from the centre c, the generators pd and the error err: the radius
  r = Σ|pd| + |err|, the interval [c − r, c + r], the slope λ of the ReLU relaxation clipped to [0, 1],
  the offset β = (relu(lower) − λ·lower)/2, the new centre λc + β, the generators scaled by λ with |β|
  placed on a diagonal, and the error scaled by λ.
-/
import proofs.«140390_j59004260712750_2_alg».proof.Proof.RefTerms
import proofs.«140390_j59004260712750_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- @main's 83 operations, in order: its own fifty-five, and at each call the callee's lines over the call's
    buffers (relu: the zero, its splat, the maximum; where: the scalar converted, its splat, the select;
    nan_to_num: the self-comparison, the replacement converted, then three selects — a NaN, +∞ and −∞ each
    replaced — with the two comparisons against the infinities between them; clip: the maximum with the lower
    bound's splat, then the minimum with the upper bound's). -/
abbrev ops : List (HloOp τ sig (Elt F)) :=
  [
    unary main_arg1 main_v0 (Host.absf : (⟨S256x256x512, .f32⟩ : BufTy).Contents (Elt F) → (⟨S256x256x512, .f32⟩ : BufTy).Contents (Elt F)),
    nullary main_cst (constant S_ .f32 0x00000000#32),
    binary main_v0 main_cst main_v1 ((fun x v => Host.reduceAdd x v reducesTo_S256x256x512_S256x512_d1 h_S_) : (⟨S256x256x512, .f32⟩ : BufTy).Contents (Elt F) → (⟨S_, .f32⟩ : BufTy).Contents (Elt F) → (⟨S256x512, .f32⟩ : BufTy).Contents (Elt F)),
    unary main_arg2 main_v2 (Host.absf : (⟨S256x512, .f32⟩ : BufTy).Contents (Elt F) → (⟨S256x512, .f32⟩ : BufTy).Contents (Elt F)),
    binary main_v1 main_v2 main_v3 (addf : (⟨S256x512, .f32⟩ : BufTy).Contents (Elt F) → (⟨S256x512, .f32⟩ : BufTy).Contents (Elt F) → (⟨S256x512, .f32⟩ : BufTy).Contents (Elt F)),
    binary main_arg0 main_v3 main_v4 (subf : (⟨S256x512, .f32⟩ : BufTy).Contents (Elt F) → (⟨S256x512, .f32⟩ : BufTy).Contents (Elt F) → (⟨S256x512, .f32⟩ : BufTy).Contents (Elt F)),
    binary main_arg0 main_v3 main_v5 (addf : (⟨S256x512, .f32⟩ : BufTy).Contents (Elt F) → (⟨S256x512, .f32⟩ : BufTy).Contents (Elt F) → (⟨S256x512, .f32⟩ : BufTy).Contents (Elt F)),
    TRef.nullary main_call0.cst (constant S_ .f32 0x00000000#32),
    TRef.unary main_call0.cst main_call0.v0 (broadcastInDim S256x512 ![] bcast_S_S256x512),
    TRef.binary (.of main_v4) main_call0.v0 main_call0.v1 maximumf,
    TRef.nullary main_call1.cst (constant S_ .f32 0x00000000#32),
    TRef.unary main_call1.cst main_call1.v0 (broadcastInDim S256x512 ![] bcast_S_S256x512),
    TRef.binary (.of main_v5) main_call1.v0 main_call1.v1 maximumf,
    binary main_v7 main_v6 main_v8 (subf : (⟨S256x512, .f32⟩ : BufTy).Contents (Elt F) → (⟨S256x512, .f32⟩ : BufTy).Contents (Elt F) → (⟨S256x512, .f32⟩ : BufTy).Contents (Elt F)),
    binary main_v5 main_v4 main_v9 (subf : (⟨S256x512, .f32⟩ : BufTy).Contents (Elt F) → (⟨S256x512, .f32⟩ : BufTy).Contents (Elt F) → (⟨S256x512, .f32⟩ : BufTy).Contents (Elt F)),
    nullary main_cst_0 (constant S_ .f32 0x322BCC77#32),
    unary main_cst_0 main_v10 (broadcastInDim S256x512 ![] bcast_S_S256x512 : (⟨S_, .f32⟩ : BufTy).Contents (Elt F) → (⟨S256x512, .f32⟩ : BufTy).Contents (Elt F)),
    binary main_v9 main_v10 main_v11 (addf : (⟨S256x512, .f32⟩ : BufTy).Contents (Elt F) → (⟨S256x512, .f32⟩ : BufTy).Contents (Elt F) → (⟨S256x512, .f32⟩ : BufTy).Contents (Elt F)),
    binary main_v8 main_v11 main_v12 (Host.divf : (⟨S256x512, .f32⟩ : BufTy).Contents (Elt F) → (⟨S256x512, .f32⟩ : BufTy).Contents (Elt F) → (⟨S256x512, .f32⟩ : BufTy).Contents (Elt F)),
    nullary main_cst_1 (constant S_ .f32 0x00000000#32),
    unary main_cst_1 main_v13 (broadcastInDim S256x512 ![] bcast_S_S256x512 : (⟨S_, .f32⟩ : BufTy).Contents (Elt F) → (⟨S256x512, .f32⟩ : BufTy).Contents (Elt F)),
    binary main_v4 main_v13 main_v14 (cmpf .oge : (⟨S256x512, .f32⟩ : BufTy).Contents (Elt F) → (⟨S256x512, .f32⟩ : BufTy).Contents (Elt F) → (⟨S256x512, .i1⟩ : BufTy).Contents (Elt F)),
    nullary main_cst_2 (constant S_ .f32 0x3F800000#32),
    TRef.unary (.of main_cst_2) main_call2.v0 id,
    TRef.unary main_call2.v0 main_call2.v1 (broadcastInDim S256x512 ![] bcast_S_S256x512),
    TRef.ternary (.of main_v14) main_call2.v1 (.of main_v12) main_call2.v2 select,
    nullary main_cst_3 (constant S_ .f32 0x00000000#32),
    unary main_cst_3 main_v16 (broadcastInDim S256x512 ![] bcast_S_S256x512 : (⟨S_, .f32⟩ : BufTy).Contents (Elt F) → (⟨S256x512, .f32⟩ : BufTy).Contents (Elt F)),
    binary main_v5 main_v16 main_v17 (cmpf .olt : (⟨S256x512, .f32⟩ : BufTy).Contents (Elt F) → (⟨S256x512, .f32⟩ : BufTy).Contents (Elt F) → (⟨S256x512, .i1⟩ : BufTy).Contents (Elt F)),
    nullary main_cst_4 (constant S_ .f32 0x00000000#32),
    TRef.unary (.of main_cst_4) main_call3.v0 id,
    TRef.unary main_call3.v0 main_call3.v1 (broadcastInDim S256x512 ![] bcast_S_S256x512),
    TRef.ternary (.of main_v17) main_call3.v1 (.of main_v15) main_call3.v2 select,
    nullary main_cst_5 (constant S_ .f32 0x00000000#32),
    TRef.binary (.of main_v18) (.of main_v18) main_call4.v0 (cmpf .une),
    TRef.unary (.of main_cst_5) main_call4.v1 id,
    TRef.unary main_call4.v1 main_call4.call0.v0 (broadcastInDim S256x512 ![] bcast_S_S256x512),
    TRef.ternary main_call4.v0 main_call4.call0.v0 (.of main_v18) main_call4.call0.v1 select,
    TRef.nullary main_call4.cst (constant S_ .f32 0x7F800000#32),
    TRef.unary main_call4.cst main_call4.v3 (broadcastInDim S256x512 ![] bcast_S_S256x512),
    TRef.binary main_call4.call0.v1 main_call4.v3 main_call4.v4 (cmpf .oeq),
    TRef.nullary main_call4.cst_0 (constant S_ .f32 0x7F7FFFFF#32),
    TRef.unary main_call4.cst_0 main_call4.call1.v0 (broadcastInDim S256x512 ![] bcast_S_S256x512),
    TRef.ternary main_call4.v4 main_call4.call1.v0 main_call4.call0.v1 main_call4.call1.v1 select,
    TRef.nullary main_call4.cst_1 (constant S_ .f32 0xFF800000#32),
    TRef.unary main_call4.cst_1 main_call4.v6 (broadcastInDim S256x512 ![] bcast_S_S256x512),
    TRef.binary main_call4.call1.v1 main_call4.v6 main_call4.v7 (cmpf .oeq),
    TRef.nullary main_call4.cst_2 (constant S_ .f32 0xFF7FFFFF#32),
    TRef.unary main_call4.cst_2 main_call4.call2.v0 (broadcastInDim S256x512 ![] bcast_S_S256x512),
    TRef.ternary main_call4.v7 main_call4.call2.v0 main_call4.call1.v1 main_call4.call2.v1 select,
    nullary main_cst_6 (constant S_ .f32 0x00000000#32),
    nullary main_cst_7 (constant S_ .f32 0x3F800000#32),
    TRef.unary (.of main_cst_6) main_call5.v0 id,
    TRef.unary main_call5.v0 main_call5.v1 (broadcastInDim S256x512 ![] bcast_S_S256x512),
    TRef.binary main_call5.v1 (.of main_v19) main_call5.v2 maximumf,
    TRef.unary (.of main_cst_7) main_call5.v3 id,
    TRef.unary main_call5.v3 main_call5.v4 (broadcastInDim S256x512 ![] bcast_S_S256x512),
    TRef.binary main_call5.v4 main_call5.v2 main_call5.v5 minimumf,
    binary main_v20 main_v4 main_v21 (mulf : (⟨S256x512, .f32⟩ : BufTy).Contents (Elt F) → (⟨S256x512, .f32⟩ : BufTy).Contents (Elt F) → (⟨S256x512, .f32⟩ : BufTy).Contents (Elt F)),
    binary main_v6 main_v21 main_v22 (subf : (⟨S256x512, .f32⟩ : BufTy).Contents (Elt F) → (⟨S256x512, .f32⟩ : BufTy).Contents (Elt F) → (⟨S256x512, .f32⟩ : BufTy).Contents (Elt F)),
    nullary main_cst_8 (constant S_ .f32 0x3F000000#32),
    unary main_cst_8 main_v23 (broadcastInDim S256x512 ![] bcast_S_S256x512 : (⟨S_, .f32⟩ : BufTy).Contents (Elt F) → (⟨S256x512, .f32⟩ : BufTy).Contents (Elt F)),
    binary main_v22 main_v23 main_v24 (mulf : (⟨S256x512, .f32⟩ : BufTy).Contents (Elt F) → (⟨S256x512, .f32⟩ : BufTy).Contents (Elt F) → (⟨S256x512, .f32⟩ : BufTy).Contents (Elt F)),
    unary main_v24 main_v25 (Host.absf : (⟨S256x512, .f32⟩ : BufTy).Contents (Elt F) → (⟨S256x512, .f32⟩ : BufTy).Contents (Elt F)),
    binary main_v20 main_arg0 main_v26 (mulf : (⟨S256x512, .f32⟩ : BufTy).Contents (Elt F) → (⟨S256x512, .f32⟩ : BufTy).Contents (Elt F) → (⟨S256x512, .f32⟩ : BufTy).Contents (Elt F)),
    binary main_v26 main_v24 main_v27 (addf : (⟨S256x512, .f32⟩ : BufTy).Contents (Elt F) → (⟨S256x512, .f32⟩ : BufTy).Contents (Elt F) → (⟨S256x512, .f32⟩ : BufTy).Contents (Elt F)),
    unary main_v20 main_v28 (broadcastInDim S256x1x512 ![0, 2] bcast_S256x512_S256x1x512_0_2 : (⟨S256x512, .f32⟩ : BufTy).Contents (Elt F) → (⟨S256x1x512, .f32⟩ : BufTy).Contents (Elt F)),
    unary main_v28 main_v29 (broadcastInDim S256x256x512 ![0, 1, 2] bcast_S256x1x512_S256x256x512_0_1_2 : (⟨S256x1x512, .f32⟩ : BufTy).Contents (Elt F) → (⟨S256x256x512, .f32⟩ : BufTy).Contents (Elt F)),
    binary main_arg1 main_v29 main_v30 (mulf : (⟨S256x256x512, .f32⟩ : BufTy).Contents (Elt F) → (⟨S256x256x512, .f32⟩ : BufTy).Contents (Elt F) → (⟨S256x256x512, .f32⟩ : BufTy).Contents (Elt F)),
    unary main_v25 main_v31 (broadcastInDim S256x512x1 ![0, 1] bcast_S256x512_S256x512x1_0_1 : (⟨S256x512, .f32⟩ : BufTy).Contents (Elt F) → (⟨S256x512x1, .f32⟩ : BufTy).Contents (Elt F)),
    nullary main_v32 (iotaInDim S512x512 32 0),
    nullary main_v33 (iotaInDim S512x512 32 1),
    nullary main_c (constantI S_ 32 0#32),
    unary main_c main_v34 (broadcastInDim S512x512 ![] bcast_S_S512x512 : (⟨S_, .i32⟩ : BufTy).Contents (Elt F) → (⟨S512x512, .i32⟩ : BufTy).Contents (Elt F)),
    binary main_v32 main_v34 main_v35 (addi : (⟨S512x512, .i32⟩ : BufTy).Contents (Elt F) → (⟨S512x512, .i32⟩ : BufTy).Contents (Elt F) → (⟨S512x512, .i32⟩ : BufTy).Contents (Elt F)),
    binary main_v35 main_v33 main_v36 (cmpi .eq : (⟨S512x512, .i32⟩ : BufTy).Contents (Elt F) → (⟨S512x512, .i32⟩ : BufTy).Contents (Elt F) → (⟨S512x512, .i1⟩ : BufTy).Contents (Elt F)),
    unary main_v36 main_v37 (uitofp .f32 : (⟨S512x512, .i1⟩ : BufTy).Contents (Elt F) → (⟨S512x512, .f32⟩ : BufTy).Contents (Elt F)),
    unary main_v37 main_v38 (broadcastInDim S1x512x512 ![1, 2] bcast_S512x512_S1x512x512_1_2 : (⟨S512x512, .f32⟩ : BufTy).Contents (Elt F) → (⟨S1x512x512, .f32⟩ : BufTy).Contents (Elt F)),
    unary main_v31 main_v39 (broadcastInDim S256x512x512 ![0, 1, 2] bcast_S256x512x1_S256x512x512_0_1_2 : (⟨S256x512x1, .f32⟩ : BufTy).Contents (Elt F) → (⟨S256x512x512, .f32⟩ : BufTy).Contents (Elt F)),
    unary main_v38 main_v40 (broadcastInDim S256x512x512 ![0, 1, 2] bcast_S1x512x512_S256x512x512_0_1_2 : (⟨S1x512x512, .f32⟩ : BufTy).Contents (Elt F) → (⟨S256x512x512, .f32⟩ : BufTy).Contents (Elt F)),
    binary main_v39 main_v40 main_v41 (mulf : (⟨S256x512x512, .f32⟩ : BufTy).Contents (Elt F) → (⟨S256x512x512, .f32⟩ : BufTy).Contents (Elt F) → (⟨S256x512x512, .f32⟩ : BufTy).Contents (Elt F)),
    binary main_v30 main_v41 main_v42 ((fun a b => concatenate S256x768x512 1 [⟨S256x256x512, a⟩, ⟨S256x512x512, b⟩] concatenates_S256x256x512_S256x512x512_S256x768x512_d1) : (⟨S256x256x512, .f32⟩ : BufTy).Contents (Elt F) → (⟨S256x512x512, .f32⟩ : BufTy).Contents (Elt F) → (⟨S256x768x512, .f32⟩ : BufTy).Contents (Elt F)),
    binary main_v20 main_arg2 main_v43 (mulf : (⟨S256x512, .f32⟩ : BufTy).Contents (Elt F) → (⟨S256x512, .f32⟩ : BufTy).Contents (Elt F) → (⟨S256x512, .f32⟩ : BufTy).Contents (Elt F)) ]

-- eighty-three binds re-associated: the rewrite under the chain recurses once per statement
set_option maxRecDepth 4096 in
set_option maxHeartbeats 1600000 in
/-- @main is that straight line: the functions' definitions unfolded at their calls and the records at their
    fields, both sides are one chain of steps once sequencing is reassociated. -/
theorem main_eq (c : Dev nD) : main (F := F) c = seq ops := by
  simp only [main, fn_relu.body, fn_where.body, fn_where_0.body, fn_nan_to_num.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., nullary_bufs_sub .., binary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., nullary_bufs_sub .., binary_bufs_sub .., unary_bufs_sub ..,
    unary_bufs_sub .., ternary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., nullary_bufs_sub .., nullary_bufs_sub .., unary_bufs_sub .., unary_bufs_sub ..,
    binary_bufs_sub .., unary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    unary_bufs_sub .., unary_bufs_sub .., binary_bufs_sub .., unary_bufs_sub .., nullary_bufs_sub .., nullary_bufs_sub ..,
    nullary_bufs_sub .., unary_bufs_sub .., binary_bufs_sub .., binary_bufs_sub .., unary_bufs_sub .., unary_bufs_sub ..,
    unary_bufs_sub .., unary_bufs_sub .., binary_bufs_sub .., binary_bufs_sub .., binary_bufs_sub ..⟩

end Cert.ReferenceIdeal.RefRun

end
-- ==== Proof.RefRun.lean ====
/-
  The reference program's run, read back: every weakly fair execution of @main terminates with the three
  result buffers at the composed terms of RefTerms.lean over the arguments' launch contents — the new centre
  λc + β, the generators scaled by λ followed by |β| on a diagonal, the error scaled by λ — and the arguments
  unchanged. The list of operations and its facts are RefOps.lean's.
-/
import proofs.«140390_j59004260712750_2_alg».proof.Proof.RefOps

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The line's fold read at the result buffers

Each operation's result is its function of its operands' contents and every other buffer is untouched, so the
fold at a buffer is the composed term of the operations that lead to it; the casts along the typed references'
type equations are the identity at these literal references. -/

/-- The first result: the new centre λ·c + β. -/
theorem v27_eq (V : Valuation τ sig (Elt F)) :
    after ops V (main_v27 : DevRef τ sig) = Terms.newCentral (V (main_arg0 : DevRef τ sig)) (V (main_arg1 : DevRef τ sig)) (V (main_arg2 : DevRef τ sig)) := by
  after_results_simp
  rfl

/-- The third result: the error scaled by λ. -/
theorem v43_eq (V : Valuation τ sig (Elt F)) :
    after ops V (main_v43 : DevRef τ sig) = Terms.newErr (V (main_arg0 : DevRef τ sig)) (V (main_arg1 : DevRef τ sig)) (V (main_arg2 : DevRef τ sig)) := by
  after_results_simp
  rfl

/-- The generators scaled by λ. -/
theorem v30_eq (V : Valuation τ sig (Elt F)) :
    after ops V (main_v30 : DevRef τ sig) = Terms.scaled (V (main_arg0 : DevRef τ sig)) (V (main_arg1 : DevRef τ sig)) (V (main_arg2 : DevRef τ sig)) := by
  after_results_simp
  rfl

/-- |β| on a diagonal. -/
theorem v41_eq (V : Valuation τ sig (Elt F)) :
    after ops V (main_v41 : DevRef τ sig) = Terms.diag (V (main_arg0 : DevRef τ sig)) (V (main_arg1 : DevRef τ sig)) (V (main_arg2 : DevRef τ sig)) := by
  after_results_simp
  rfl

/-! The second result is the concatenation of those two along the generator axis. The pieces of a concatenation sit
in a list of (shape, array) pairs, so the fold is first cut before the concatenation: what the earlier operations
leave at the two pieces' buffers is known (the two theorems above), and the last two operations are read on top. -/

/-- The fold of a line run in two parts is the second part's fold from the first part's. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | _ :: l, l₂, V => by rw [List.cons_append, after_cons, after_cons, after_append l l₂]

/-- The line's last two operations: the concatenation of the scaled generators with the diagonal ones, and the
    error's product with λ. -/
abbrev opsTail : List (HloOp τ sig (Elt F)) :=
  [ binary main_v30 main_v41 main_v42 ((fun a b => concatenate S256x768x512 1 [⟨S256x256x512, a⟩, ⟨S256x512x512, b⟩] concatenates_S256x256x512_S256x512x512_S256x768x512_d1) : (⟨S256x256x512, .f32⟩ : BufTy).Contents (Elt F) → (⟨S256x512x512, .f32⟩ : BufTy).Contents (Elt F) → (⟨S256x768x512, .f32⟩ : BufTy).Contents (Elt F)),
    binary main_v20 main_arg2 main_v43 (mulf : (⟨S256x512, .f32⟩ : BufTy).Contents (Elt F) → (⟨S256x512, .f32⟩ : BufTy).Contents (Elt F) → (⟨S256x512, .f32⟩ : BufTy).Contents (Elt F)) ]

/-- The line is its first 81 operations, then those two. -/
theorem ops_split : (ops : List (HloOp τ sig (Elt F))) = ops.take 81 ++ opsTail := rfl

/-- The second result: the generators scaled by λ, then |β| on a diagonal. -/
theorem v42_eq (V : Valuation τ sig (Elt F)) :
    after ops V (main_v42 : DevRef τ sig) = Terms.newPd (V (main_arg0 : DevRef τ sig)) (V (main_arg1 : DevRef τ sig)) (V (main_arg2 : DevRef τ sig)) := by
  have e30 := v30_eq V
  have e41 := v41_eq V
  rw [ops_split, after_append] at e30 e41 ⊢
  generalize after (List.take 81 ops) V = W at e30 e41 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at e30 e41 ⊢
  rw [e30, e41]
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with each result at its composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = Terms.newCentral (m ((c.tc : Thread nD τ).loc main_arg0)) (m ((c.tc : Thread nD τ).loc main_arg1)) (m ((c.tc : Thread nD τ).loc main_arg2))
      ∧ r.2.mem ((c.tc : Thread nD τ).loc main_v42) = Terms.newPd (m ((c.tc : Thread nD τ).loc main_arg0)) (m ((c.tc : Thread nD τ).loc main_arg1)) (m ((c.tc : Thread nD τ).loc main_arg2))
      ∧ r.2.mem ((c.tc : Thread nD τ).loc main_v43) = Terms.newErr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v27).trans (v27_eq _), (h c main_v42).trans (v42_eq _),
      (h c main_v43).trans (v43_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.Bridge.lean ====
/-
  The reference's composed terms, read over the extended reals, are the whole-array functions of the specification:
  every stage of the slope λ and the offset β is the one-coordinate function of the centre and the radius at that
  coordinate (the host's quotient and absolute value are the kernel's on extended reals, and an unordered "not equal"
  is the ordered one, there being nothing unordered); the host's sum over the generator axis from zero is the plain sum;
  the concatenation along the generator axis reads the scaled generators below row 256 and the diagonal ones from row
  256 on; the identity matrix entry is the indicator of row = column.
-/
import proofs.«140390_j59004260712750_2_alg».proof.Proof.RefTerms
import proofs.«140390_j59004260712750_2_alg».proof.Proof.Spec
import proofs.«140390_j59004260712750_2_alg».proof.Proof.LibEyeWords
import proofs.«140390_j59004260712750_2_alg».proof.Proof.Gen.ReferenceIdeal
import Idealize.ShloMosaic.PureOps.Ideal.Laws
import Idealize.ShloMosaic.Lib.Pipeline.Value

set_option maxRecDepth 16384

noncomputable section

namespace Cert.ReferenceIdeal.Bridge

open Cert.ReferenceIdeal Cert.ReferenceIdeal.Gen Cert.ReluZono
open Idealize.ShloMosaic Idealize.ShloMosaic.ValueIdx

variable (a0 : FVec Ideal S256x512 .f32) (a1 : FVec Ideal S256x256x512 .f32) (a2 : FVec Ideal S256x512 .f32)

/-- The radius at (p, q): the host's sum from zero is the plain sum over the 256 generators. -/
theorem radius_at (p : Fin 256) (q : Fin 512) : Terms.radius (F := Ideal) a1 a2 (ix2 p q) = radAt a1 a2 p q := by
  unfold Terms.radius radAt
  show (Host.reduceAdd (F := Ideal) (Host.absf a1) (constant (F := Ideal) S_ .f32 0x00000000#32)
      Facts₀.reducesTo_S256x256x512_S256x512_d1 Facts₀.h_S_ (ix2 p q) : EReal)
    + FloatOps.absf (F := Ideal) (φ := .f32) (a2 (ix2 p q)) = _
  refine congrArg (· + FloatOps.absf (F := Ideal) (φ := .f32) (a2 (ix2 p q))) ?_
  show Ideal.hostReduceAdd Facts₀.reducesTo_S256x256x512_S256x512_d1 (Host.absf a1) (Ideal.ofBits .f32 0x00000000#32) (ix2 p q) = _
  rw [Ideal.hostReduceAdd_single _ (by decide : S256x256x512.Reduces [1] S256x512), Ideal.ofBits_zero_f32, zero_add]
  refine Finset.sum_congr rfl fun n _ => ?_
  show FloatOps.absf (F := Ideal) (φ := .f32) (a1 _) = FloatOps.absf (F := Ideal) (φ := .f32) (a1 (ix3 p n q))
  refine congrArg (fun z => FloatOps.absf (F := Ideal) (φ := .f32) (a1 z)) ?_
  funext a
  match a with
  | ⟨0, _⟩ => rfl
  | ⟨1, _⟩ => rfl
  | ⟨2, _⟩ => rfl

/-- Each [256, 512] stage at (p, q) is the one-coordinate function of the centre and the radius there. -/
theorem lam_at (p : Fin 256) (q : Fin 512) : Terms.lam (F := Ideal) a0 a1 a2 (ix2 p q) = lamAt a0 a1 a2 p q := by
  have h : Terms.lam (F := Ideal) a0 a1 a2 (ix2 p q) = sLam (F := Ideal) (a0 (ix2 p q)) (Terms.radius (F := Ideal) a1 a2 (ix2 p q)) := rfl
  rw [h, radius_at]; rfl
theorem delta_at (p : Fin 256) (q : Fin 512) : Terms.delta (F := Ideal) a0 a1 a2 (ix2 p q) = deltaAt a0 a1 a2 p q := by
  have h : Terms.delta (F := Ideal) a0 a1 a2 (ix2 p q) = sDelta (F := Ideal) (a0 (ix2 p q)) (Terms.radius (F := Ideal) a1 a2 (ix2 p q)) := rfl
  rw [h, radius_at]; rfl
theorem central_at (p : Fin 256) (q : Fin 512) : Terms.newCentral (F := Ideal) a0 a1 a2 (ix2 p q) = centralAt a0 a1 a2 p q := by
  have h : Terms.newCentral (F := Ideal) a0 a1 a2 (ix2 p q) = sCentral (F := Ideal) (a0 (ix2 p q)) (Terms.radius (F := Ideal) a1 a2 (ix2 p q)) := rfl
  rw [h, radius_at]; rfl
theorem err_at (p : Fin 256) (q : Fin 512) : Terms.newErr (F := Ideal) a0 a1 a2 (ix2 p q) = errAt a0 a1 a2 p q := by
  have h : Terms.newErr (F := Ideal) a0 a1 a2 (ix2 p q)
      = sErr (F := Ideal) (a2 (ix2 p q)) (a0 (ix2 p q)) (Terms.radius (F := Ideal) a1 a2 (ix2 p q)) := rfl
  rw [h, radius_at]; rfl

theorem lam_eq : Terms.lam (F := Ideal) a0 a1 a2 = GLam a0 a1 a2 := by
  funext i
  obtain ⟨p, q, rfl⟩ : ∃ (p : Fin 256) (q : Fin 512), i = ix2 p q := ⟨i 0, i 1, eq_ix2 i⟩
  exact lam_at a0 a1 a2 p q
theorem delta_eq : Terms.delta (F := Ideal) a0 a1 a2 = GDelta a0 a1 a2 := by
  funext i
  obtain ⟨p, q, rfl⟩ : ∃ (p : Fin 256) (q : Fin 512), i = ix2 p q := ⟨i 0, i 1, eq_ix2 i⟩
  exact delta_at a0 a1 a2 p q
theorem central_eq : Terms.newCentral (F := Ideal) a0 a1 a2 = GCentral a0 a1 a2 := by
  funext i
  obtain ⟨p, q, rfl⟩ : ∃ (p : Fin 256) (q : Fin 512), i = ix2 p q := ⟨i 0, i 1, eq_ix2 i⟩
  exact central_at a0 a1 a2 p q
theorem err_eq : Terms.newErr (F := Ideal) a0 a1 a2 = GErr a0 a1 a2 := by
  funext i
  obtain ⟨p, q, rfl⟩ : ∃ (p : Fin 256) (q : Fin 512), i = ix2 p q := ⟨i 0, i 1, eq_ix2 i⟩
  exact err_at a0 a1 a2 p q

/-- The scaled generators at (p, R, q): the generator entry times the slope at (p, q). -/
theorem scaled_at (p : Fin 256) (R : Fin 256) (q : Fin 512) :
    Terms.scaled (F := Ideal) a0 a1 a2 (ix3 p R q) = FloatOps.mulf (F := Ideal) (φ := .f32) (a1 (ix3 p R q)) (Terms.lam (F := Ideal) a0 a1 a2 (ix2 p q)) := by
  unfold Terms.scaled
  show FloatOps.mulf (F := Ideal) (φ := .f32) (a1 (ix3 p R q)) _ = _
  refine congrArg (FloatOps.mulf (F := Ideal) (φ := .f32) (a1 (ix3 p R q))) ?_
  refine (broadcastInDim_apply _ _ _ (ix3 p R q) (ix3 p (0 : Fin 1) q) (fun a => by
    match a with
    | ⟨0, _⟩ => rfl
    | ⟨1, _⟩ => rfl
    | ⟨2, _⟩ => rfl)).trans ?_
  exact broadcastInDim_apply _ _ _ (ix3 p (0 : Fin 1) q) (ix2 p q) (fun a => by
    match a with
    | ⟨0, _⟩ => rfl
    | ⟨1, _⟩ => rfl)

/-- The identity matrix at (C, q) over the extended reals. -/
theorem eye_at (C q : Fin 512) : Terms.eye (F := Ideal) (ix2 C q) = eyeAt C.val q.val := by
  unfold Terms.eye eyeAt
  have hC : C.val < 512 := C.isLt
  have hq : q.val < 512 := q.isLt
  show FloatOps.uitofp (F := Ideal) .f32 (IntOp.cmpi .eq (IntOp.addi (BitVec.ofNat 32 C.val) (BitVec.ofNat 32 0)) (BitVec.ofNat 32 q.val)) = _
  rw [Cert.LibEyeWords.ofNat32_add, Nat.add_zero]
  exact Cert.LibEyeWords.uitofp_eq _ _ (by omega) (by omega)

/-- The diagonal generators at (p, C, q): |β|(p, C) times the identity entry (C, q). -/
theorem diag_at (p : Fin 256) (C : Fin 512) (q : Fin 512) :
    Terms.diag (F := Ideal) a0 a1 a2 (ix3 p C q)
      = FloatOps.mulf (F := Ideal) (φ := .f32) (Terms.delta (F := Ideal) a0 a1 a2 (ix2 p C)) (eyeAt C.val q.val) := by
  unfold Terms.diag
  show FloatOps.mulf (F := Ideal) (φ := .f32) _ _ = _
  have e1 : broadcastInDim S256x512x512 ![0, 1, 2] Facts₀.bcast_S256x512x1_S256x512x512_0_1_2
      (broadcastInDim S256x512x1 ![0, 1] Facts₀.bcast_S256x512_S256x512x1_0_1 (Terms.delta (F := Ideal) a0 a1 a2)) (ix3 p C q)
      = Terms.delta (F := Ideal) a0 a1 a2 (ix2 p C) := by
    refine (broadcastInDim_apply _ _ _ (ix3 p C q) (ix3 p C (0 : Fin 1)) (fun a => by
      match a with
      | ⟨0, _⟩ => rfl
      | ⟨1, _⟩ => rfl
      | ⟨2, _⟩ => rfl)).trans ?_
    exact broadcastInDim_apply _ _ _ (ix3 p C (0 : Fin 1)) (ix2 p C) (fun a => by
      match a with
      | ⟨0, _⟩ => rfl
      | ⟨1, _⟩ => rfl)
  have e2 : broadcastInDim S256x512x512 ![0, 1, 2] Facts₀.bcast_S1x512x512_S256x512x512_0_1_2
      (broadcastInDim S1x512x512 ![1, 2] Facts₀.bcast_S512x512_S1x512x512_1_2 (Terms.eye (F := Ideal))) (ix3 p C q)
      = Terms.eye (F := Ideal) (ix2 C q) := by
    refine (broadcastInDim_apply _ _ _ (ix3 p C q) (ix3 (0 : Fin 1) C q) (fun a => by
      match a with
      | ⟨0, _⟩ => rfl
      | ⟨1, _⟩ => rfl
      | ⟨2, _⟩ => rfl)).trans ?_
    exact broadcastInDim_apply _ _ _ (ix3 (0 : Fin 1) C q) (ix2 C q) (fun a => by
      match a with
      | ⟨0, _⟩ => rfl
      | ⟨1, _⟩ => rfl)
  rw [e1, e2, eye_at]

theorem pdAt_low (b1 : A3) (lam dl : A2) (P : Fin 256) (R : Fin 768) (q : Fin 512) (R' : Fin 256) (h : R'.val = R.val) :
    pdAt b1 lam dl P R q = FloatOps.mulf (F := Ideal) (φ := .f32) (b1 (ix3 P R' q)) (lam (ix2 P q)) := by
  unfold pdAt
  rw [dif_pos (show R.val < 256 by have := R'.isLt; omega)]
  have e : (⟨R.val, by have := R'.isLt; omega⟩ : Fin 256) = R' := Fin.ext h.symm
  rw [e]
theorem pdAt_high (b1 : A3) (lam dl : A2) (P : Fin 256) (R : Fin 768) (q : Fin 512) (C : Fin 512) (h : R.val = 256 + C.val) :
    pdAt b1 lam dl P R q = FloatOps.mulf (F := Ideal) (φ := .f32) (dl (ix2 P C)) (eyeAt C.val q.val) := by
  unfold pdAt
  rw [dif_neg (show ¬ R.val < 256 by omega)]
  have e : (⟨R.val - 256, by have := R.isLt; omega⟩ : Fin 512) = C := Fin.ext (by show R.val - 256 = C.val; omega)
  rw [e, show R.val - 256 = C.val by omega]

/-- The new generators are the specification's. -/
theorem pd_eq : Terms.newPd (F := Ideal) a0 a1 a2 = GPd a1 (GLam a0 a1 a2) (GDelta a0 a1 a2) := by
  funext i
  obtain ⟨p, R, q, rfl⟩ : ∃ (p : Fin 256) (R : Fin 768) (q : Fin 512), i = ix3 p R q := ⟨i 0, i 1, i 2, eq_ix3 i⟩
  show _ = pdAt a1 (GLam a0 a1 a2) (GDelta a0 a1 a2) p R q
  unfold Terms.newPd
  have hR : R.val < 768 := R.isLt
  by_cases h : R.val < 256
  · rw [pdAt_low a1 _ _ p R q ⟨R.val, h⟩ rfl, ← lam_eq]
    refine (concatenate_apply_piece (1 : Fin 3) [⟨S256x256x512, Terms.scaled (F := Ideal) a0 a1 a2⟩, ⟨S256x512x512, Terms.diag (F := Ideal) a0 a1 a2⟩] _ (ix3 p R q) 0 Nat.zero_lt_two S256x256x512 (Terms.scaled (F := Ideal) a0 a1 a2) rfl rfl 0 rfl
      (ix3 p (⟨R.val, h⟩ : Fin 256) q) (fun b hb => by
        match b with
        | ⟨0, _⟩ => rfl
        | ⟨1, _⟩ => exact absurd rfl hb
        | ⟨2, _⟩ => rfl) (Nat.zero_add _)).trans ?_
    exact scaled_at a0 a1 a2 p ⟨R.val, h⟩ q
  · rw [pdAt_high a1 _ _ p R q (⟨R.val - 256, by omega⟩ : Fin 512) (by show R.val = 256 + (R.val - 256); omega), ← delta_eq]
    refine (concatenate_apply_piece (1 : Fin 3) [⟨S256x256x512, Terms.scaled (F := Ideal) a0 a1 a2⟩, ⟨S256x512x512, Terms.diag (F := Ideal) a0 a1 a2⟩] _ (ix3 p R q) 1 Nat.one_lt_two S256x512x512 (Terms.diag (F := Ideal) a0 a1 a2) rfl rfl 256 rfl
      (ix3 p (⟨R.val - 256, by omega⟩ : Fin 512) q) (fun b hb => by
        match b with
        | ⟨0, _⟩ => rfl
        | ⟨1, _⟩ => exact absurd rfl hb
        | ⟨2, _⟩ => rfl) (by show 256 + (R.val - 256) = R.val; omega)).trans ?_
    exact diag_at a0 a1 a2 p ⟨R.val - 256, by omega⟩ q

end Cert.ReferenceIdeal.Bridge

end
-- ==== Proof.lean ====
/-
  The ReLU relaxation of a zonotope as two pipelined kernel regions against its plain array program.
  From a centre c, generators pd and an error term err, coordinate by coordinate: the radius r = Σ|pd| + |err|, the interval
  [c − r, c + r], the slope λ of the relaxation clipped to [0, 1], the offset β = (relu(c − r) − λ·(c − r))/2; returned are the new
  centre λ·c + β, the generators scaled by λ followed by |β| laid on a diagonal, and the error scaled by λ.
  The first region computes λ·c + β, λ·err, λ and |β| block of eight rows by block; the second writes the [256, 768, 512]
  result block by block from the generators, λ and |β|. Over the extended reals both programs are the same functions of
  the three arrays, entry by entry: the radius is one and the same finite sum in either program, every later stage is the
  same one-coordinate function of the centre and the radius, and the concatenation of the scaled generators with the
  diagonal ones is the kernel's two kinds of output block. No property of the inputs is used for the values.
  The three frames: each kernel program by the pipeline rule region by region (its body's stores cover each output block,
  its inputs are only read); the reference by running its operations in order. Nothing was rewritten between the kernel
  and its idealization, so there is nothing to preserve.
-/
import proofs.«140390_j59004260712750_2_alg».proof.Defs
import proofs.«140390_j59004260712750_2_alg».proof.Proof.Gen.Kernel
import proofs.«140390_j59004260712750_2_alg».proof.Proof.Gen.KernelIdeal
import proofs.«140390_j59004260712750_2_alg».proof.Proof.Gen.ReferenceIdeal
import proofs.«140390_j59004260712750_2_alg».proof.Proof.Gen.Pre_finite_inputs
import proofs.«140390_j59004260712750_2_alg».proof.Proof.WRun
import proofs.«140390_j59004260712750_2_alg».proof.Proof.KValue
import proofs.«140390_j59004260712750_2_alg».proof.Proof.RefRun
import proofs.«140390_j59004260712750_2_alg».proof.Proof.Bridge

noncomputable section

namespace Cert.Proof

open Idealize.ShloMosaic Idealize.SL.Sem

/-- The word-level kernel runs and leaves its three arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference runs and leaves its arguments as launched: its run with the results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

/-- From memories agreeing on the arguments both programs end with the same three arrays: the specification's functions of
    the arguments. -/
theorem algebraic : Cert.algebraic_KernelIdeal_ReferenceIdeal := by
  intro m ρ m' ρ' _ hagree
  refine ⟨_, _, _, Cert.KernelIdeal.Hand.run_value m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.RefRun.run (F := Ideal) m' ρ')
  · rw [(hagree c).1, (hagree c).2.1, (hagree c).2.2]
    exact Cert.ReferenceIdeal.Bridge.central_eq _ _ _
  · rw [(hagree c).1, (hagree c).2.1, (hagree c).2.2]
    exact Cert.ReferenceIdeal.Bridge.pd_eq _ _ _
  · rw [(hagree c).1, (hagree c).2.1, (hagree c).2.2]
    exact Cert.ReferenceIdeal.Bridge.err_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
